-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x40 .f32) (main_arg11 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128x40 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S4000x1 : Shape := ⟨2, ![4000, 1]⟩
abbrev S1700000x128 : Shape := ⟨2, ![1700000, 128]⟩
abbrev S1x128 : Shape := ⟨2, ![1, 128]⟩
abbrev S1x40 : Shape := ⟨2, ![1, 40]⟩
abbrev S100000x40 : Shape := ⟨2, ![100000, 40]⟩
abbrev S4000x40 : Shape := ⟨2, ![4000, 40]⟩

abbrev nBuf : Space → Nat
  | .hbm => 73
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000, .i32⟩
  | .hbm, ⟨17, _⟩ => ⟨S1700000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .bf16⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000x128, .bf16⟩
  | .hbm, ⟨44, _⟩ => ⟨S1700000x128, .f32⟩
  | .hbm, ⟨45, _⟩ => ⟨S_, .f32⟩
  | .hbm, ⟨46, _⟩ => ⟨S100000x128, .f32⟩
  | .hbm, ⟨47, _⟩ => ⟨S1700000x1, .i32⟩
  | .hbm, ⟨48, _⟩ => ⟨S100000x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S100000x128, .f32⟩
  | .hbm, ⟨55, _⟩ => ⟨S100000x128, .bf16⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .bf16⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S1x40, .f32⟩
  | .hbm, ⟨72, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S4000x128, .f32⟩
  | .local _ .vmem, ⟨18, _⟩ => ⟨S4000x128, .f32⟩
  | .local _ .vmem, ⟨19, _⟩ => ⟨S4000x128, .bf16⟩
  | .local _ .vmem, ⟨20, _⟩ => ⟨S4000x128, .bf16⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x1, .f32⟩
  | .local _ .vmem, ⟨26, _⟩ => ⟨S4000x1, .f32⟩
  | .local _ .vmem, ⟨27, _⟩ => ⟨S1x128, .f32⟩
  | .local _ .vmem, ⟨28, _⟩ => ⟨S128x40, .f32⟩
  | .local _ .vmem, ⟨29, _⟩ => ⟨S1x40, .f32⟩
  | .local _ .vmem, ⟨30, _⟩ => ⟨S4000x40, .f32⟩
  | .local _ .vmem, ⟨31, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33_0 : Ref sig .tc := ⟨.hbm, 54, rfl⟩
abbrev main_v33_1 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4000x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x40 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S100000x128.size a
  hwx1_8 : ∀ i : grid1.Coords, EltTy.bits .f32 = 32 ∨ (Rect.block (s := S100000x128) S4000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .bf16 = 32 ∨ (Rect.block (s := S100000x128) S4000x128.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x40.size a ≤ S1x40.size a
  hwx2_5 : ∀ i : grid2.Coords, EltTy.bits .f32 = 32 ∨ (Rect.block (s := S1x40) S1x40.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x40.size a ≤ S100000x40.size a
  hwx2_6 : ∀ i : grid2.Coords, EltTy.bits .f32 = 32 ∨ (Rect.block (s := S100000x40) S4000x40.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v33_0) S4000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v33_1) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v33_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S4000x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000, .i32⟩
  | .hbm, ⟨17, _⟩ => ⟨S1700000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x128, .f32⟩
  | .hbm, ⟨101, _⟩ => ⟨S1700000x1, .f32⟩
  | .hbm, ⟨102, _⟩ => ⟨S1700000x128, .f32⟩
  | .hbm, ⟨103, _⟩ => ⟨S1700000x128, .f32⟩
  | .hbm, ⟨104, _⟩ => ⟨S_, .f32⟩
  | .hbm, ⟨105, _⟩ => ⟨S100000x128, .f32⟩
  | .hbm, ⟨106, _⟩ => ⟨S1700000x1, .i32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S100000x40, .f32⟩
  | .hbm, ⟨113, _⟩ => ⟨S1x40, .f32⟩
  | .hbm, ⟨114, _⟩ => ⟨S100000x40, .f32⟩
  | .hbm, ⟨115, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call1_cst : Ref sig .tc := ⟨.hbm, 88, rfl⟩
abbrev main_call1_v0 : Ref sig .tc := ⟨.hbm, 89, rfl⟩
abbrev main_v62 : Ref sig .tc := ⟨.hbm, 90, rfl⟩
abbrev main_v63 : Ref sig .tc := ⟨.hbm, 91, rfl⟩
abbrev main_c_10 : Ref sig .tc := ⟨.hbm, 92, rfl⟩
abbrev main_v64 : Ref sig .tc := ⟨.hbm, 93, rfl⟩
abbrev main_v65 : Ref sig .tc := ⟨.hbm, 94, rfl⟩
abbrev main_c_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_12 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  A two-layer graph convolution with symmetric normalisation, batch normalisation, a rectifier, a
  jumping-knowledge maximum and a final linear map, written entry by entry on the extended reals.

  An edge e sends the row of its source node src e to its target. The target is a signed integer tg e: the
  message lands in row r exactly when tg e = r, and lands nowhere when tg e is no row number. Every node r has a
  normalisation factor ds r, a nonnegative extended real below +∞.

  The two arrangements differ only in where the factors sit. In the first, a row is scaled by its own factor before
  it is sent, and the received sum is scaled by the receiver's factor. In the second, every message is scaled by
  the product of the sender's and the receiver's factors, the receiver's read at the node tc e that the target
  clamps to. Where a message lands (tg e = r) that node is r, so the receiver's factor is one common right factor
  of every summand of row r; a nonnegative factor below +∞ distributes over any finite sum of extended reals, and
  multiplication of extended reals is associative. So the two received sums agree (prop_pair), and with them
  everything computed from them.
-/
import Idealize.ShloMosaic.PureOps.Ideal
import Idealize.ShloMosaic.Lib.ValueIdx
import Idealize.ShloMosaic.Lib.IdealHost
import Mathlib.Data.EReal.Operations

noncomputable section

namespace Cert.GCN

open Idealize.ShloMosaic
open scoped BigOperators

/-- The word of the batch normalisation's ε, read as an extended real. -/
def eps : EReal := Ideal.ofBits .f32 0x3727C5AC#32
/-- The zero word, read as an extended real (the rectifier's floor and every sum's starting value). -/
def zero : EReal := Ideal.ofBits .f32 0x00000000#32

theorem zero_eq : zero = 0 := Ideal.ofBits_zero_f32

/-- An array of extended reals named with its shape: a buffer's contents read as such an array. -/
abbrev arr (S : Shape) (f : S.Idx → EReal) : S.Idx → EReal := f

/-- Bias, batch normalisation with running statistics, scale and shift, rectifier: one entry. -/
def bnrelu (a b mu va g be : EReal) : EReal :=
  max ((((a + b) - mu) * Ideal.rsqrt (va + eps)) * g + be) zero

section Layers

variable (tg : Fin 1700000 → Int) (sr tc : Fin 1700000 → Fin 100000) (ds : Fin 100000 → EReal)

/-- Row r of what the edges deliver when each sends row src e of h. -/
def prop (h : Fin 100000 → Fin 128 → EReal) (r : Fin 100000) (k : Fin 128) : EReal :=
  zero + ∑ e : Fin 1700000, if tg e = (r.val : Int) then h (sr e) k else 0

/-- The same with every message scaled by the sender's factor times the factor of the node its target clamps to. -/
def propN (h : Fin 100000 → Fin 128 → EReal) (r : Fin 100000) (k : Fin 128) : EReal :=
  zero + ∑ e : Fin 1700000, if tg e = (r.val : Int) then h (sr e) k * (ds (sr e) * ds (tc e)) else 0

/-- A dense transform: entry (r, k) of x · W. -/
def lin {K M : Nat} (x : Fin 100000 → Fin K → EReal) (W : Fin K → Fin M → EReal) (r : Fin 100000) (k : Fin M) : EReal :=
  ∑ j : Fin K, x r j * W j k

/-- A dense transform with each row scaled by its node's factor. -/
def linS (x : Fin 100000 → Fin 128 → EReal) (W : Fin 128 → Fin 128 → EReal) (r : Fin 100000) (k : Fin 128) : EReal :=
  lin x W r k * ds r

variable (x : Fin 100000 → Fin 128 → EReal) (W1 : Fin 128 → Fin 128 → EReal) (b1 g be mu va : Fin 128 → EReal)
  (W2 : Fin 128 → Fin 128 → EReal) (b2 : Fin 128 → EReal) (Wf : Fin 128 → Fin 40 → EReal) (bf : Fin 40 → EReal)

/-- First arrangement, layer one. -/
def x1K (r : Fin 100000) (k : Fin 128) : EReal :=
  bnrelu (prop tg sr (linS ds x W1) r k * ds r) (b1 k) (mu k) (va k) (g k) (be k)

/-- First arrangement, the result. -/
def outK (r : Fin 100000) (o : Fin 40) : EReal :=
  (∑ k : Fin 128, max (x1K tg sr ds x W1 b1 g be mu va r k)
      (prop tg sr (linS ds (x1K tg sr ds x W1 b1 g be mu va) W2) r k * ds r + b2 k) * Wf k o) + bf o

/-- Second arrangement, layer one. -/
def x1R (r : Fin 100000) (k : Fin 128) : EReal :=
  bnrelu (propN tg sr tc ds (lin x W1) r k) (b1 k) (mu k) (va k) (g k) (be k)

/-- Second arrangement, the result. -/
def outR (r : Fin 100000) (o : Fin 40) : EReal :=
  (∑ k : Fin 128, max (x1R tg sr tc ds x W1 b1 g be mu va r k)
      (propN tg sr tc ds (lin (x1R tg sr tc ds x W1 b1 g be mu va) W2) r k + b2 k) * Wf k o) + bf o

variable (hd : ∀ r, 0 ≤ ds r ∧ ds r ≠ ⊤) (hc : ∀ e (r : Fin 100000), tg e = (r.val : Int) → tc e = r)
include hd hc

/-- The received sums of the two arrangements agree. -/
theorem prop_pair (h : Fin 100000 → Fin 128 → EReal) (r : Fin 100000) (k : Fin 128) :
    propN tg sr tc ds h r k = prop tg sr (fun i j => h i j * ds i) r k * ds r := by
  obtain ⟨h0, ht⟩ := hd r
  unfold propN prop
  rw [EReal.right_distrib_of_nonneg_of_ne_top h0 ht, zero_eq, zero_mul]
  refine congrArg (fun z : EReal => (0 : EReal) + z) ?_
  classical
  have hsum : ∀ (s : Finset (Fin 1700000)) (f : Fin 1700000 → EReal), (∑ e ∈ s, f e) * ds r = ∑ e ∈ s, f e * ds r := by
    intro s f
    induction s using Finset.induction_on with
    | empty => simp
    | insert a s ha ih =>
      rw [Finset.sum_insert ha, Finset.sum_insert ha, EReal.right_distrib_of_nonneg_of_ne_top h0 ht, ih]
  rw [hsum]
  refine Finset.sum_congr rfl fun e _ => ?_
  by_cases he : tg e = (r.val : Int)
  · rw [if_pos he, if_pos he, hc e r he, mul_assoc]
  · rw [if_neg he, if_neg he, zero_mul]

theorem x1_pair : x1R tg sr tc ds x W1 b1 g be mu va = x1K tg sr ds x W1 b1 g be mu va := by
  funext r k
  unfold x1R x1K
  rw [prop_pair tg sr tc ds hd hc]
  rfl

/-- The two arrangements compute the same result. -/
theorem out_pair (r : Fin 100000) (o : Fin 40) :
    outR tg sr tc ds x W1 b1 g be mu va W2 b2 Wf bf r o = outK tg sr ds x W1 b1 g be mu va W2 b2 Wf bf r o := by
  unfold outR outK
  rw [x1_pair tg sr tc ds x W1 b1 g be mu va hd hc]
  refine congrArg (· + bf o) (Finset.sum_congr rfl fun k _ => ?_)
  rw [prop_pair tg sr tc ds hd hc]
  rfl

end Layers

end Cert.GCN

end
-- ==== Proof.Edges.lean ====
/-
  How the two index operations of the graph read an edge's word.

  The scatter that delivers messages reads the target word as a signed integer and drops the message when that
  integer is no row number. The gathers that fetch a node's row, or a node's factor, read a word to which the node
  count has been added when it is negative, as a signed integer cut off below at zero and above at the last row.
  A word whose signed reading is a row number r is not negative, so it is left as it is, and the row the gather
  reads is r itself.
-/
import Idealize.ShloMosaic.PureOps
import Idealize.ShloMosaic.Lib.ValueIdx

namespace Cert.GCN

open Idealize.ShloMosaic Idealize.ShloMosaic.ValueIdx

/-- Where edge e's message lands: its target word read as a signed integer. -/
def tgt (col : IVec (⟨1, ![1700000]⟩ : Shape) 32) (e : Fin 1700000) : Int := (col (ix1 e)).toInt

/-- The word a gather reads for a node: the node count added to a negative word. -/
def wrapW (x : BitVec 32) : BitVec 32 := Scalar.select (IntOp.cmpi .slt x 0#32) (IntOp.addi x 100000#32) x

/-- The row a gather reads for edge e's word: the wrapped word, signed, clamped into the rows. -/
def node (v : IVec (⟨1, ![1700000]⟩ : Shape) 32) (e : Fin 1700000) : Fin 100000 :=
  ⟨min (wrapW (v (ix1 e))).toInt.toNat (100000 - 1), by omega⟩

/-- A word whose signed reading is the row number r is read by the gathers as row r. -/
theorem node_of_tgt (col : IVec (⟨1, ![1700000]⟩ : Shape) 32) (e : Fin 1700000) (r : Fin 100000)
    (h : tgt col e = (r.val : Int)) : node col e = r := by
  unfold tgt at h
  have hlt : (col (ix1 e)).slt 0#32 = false := by
    rw [BitVec.slt_eq_decide, h]
    exact decide_eq_false (by rw [show (0#32 : BitVec 32).toInt = 0 from rfl]; omega)
  have hw : wrapW (col (ix1 e)) = col (ix1 e) := by
    unfold wrapW
    show Scalar.select (BitVec.ofBool ((col (ix1 e)).slt 0#32)) _ _ = _
    rw [hlt]
    rfl
  apply Fin.ext
  show min (wrapW (col (ix1 e))).toInt.toNat (100000 - 1) = r.val
  rw [hw, h, Int.toNat_natCast]
  have := r.isLt
  omega

end Cert.GCN
-- ==== Proof.KernelRun.lean ====
/-
  The idealized kernel's run with its result named.

  The program is three kernel regions among stretches of host operations. Its run ends with every buffer that
  outlives the regions at the contents the last boundary fixes: a fold from the launch memory through each stretch
  of host operations and each region's write-backs. The result array is one of those buffers, so every weakly fair
  execution terminates, without a fault, with the result array at that fold's value and the argument arrays as
  launched. This is the launch theorem for several regions applied to the same segments, thread states and proof
  data as the frame of this program, with the result array added to what is read off the last thread state.
-/
import proofs.«160650_j4501125726319_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v47 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.Named

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.KernelFolds.lean ====
/-
  The idealized kernel's buffers at the boundaries of its regions.

  Between the launch and the return the program's buffers pass eight boundaries: three stretches of host
  operations, the first region, a stretch, the second region, a stretch, the third region. A buffer that a
  stretch does not write, and that is not an array of the region passed, holds at the later boundary what it held
  at the earlier one; an input array of a region is left as the region found it. So every argument array holds
  its launch contents wherever it is read; the two edge index vectors, written once before the first region, are
  the same vectors at every later boundary; and the column of normalisation factors, written once and then read
  by all three regions, is the same column in all three.
-/
import proofs.«160650_j4501125726319_2_alg».proof.Proof.Gen.KernelIdeal.Frame
import proofs.«160650_j4501125726319_2_alg».proof.Proof.RefRead
import proofs.«160650_j4501125726319_2_alg».proof.Proof.Spec
import proofs.«160650_j4501125726319_2_alg».proof.Proof.Edges
import proofs.«160650_j4501125726319_2_alg».proof.Proof.LibColumns
import proofs.«160650_j4501125726319_2_alg».proof.Proof.LibRowCast
import Idealize.ShloMosaic.Lib.Pipeline.Value
import Idealize.ShloMosaic.Lib.StableHlo.Run

set_option maxRecDepth 16384

noncomputable section

namespace Cert.KernelIdeal.Folds

open Cert.KernelIdeal Cert.KernelIdeal.Gen Idealize.ShloMosaic Idealize.ShloMosaic.TcCoe Idealize.ShloMosaic.ValueIdx Idealize.SL.Sem
open Cert.GCN
open scoped BigOperators

/-- A buffer no operation of a host stretch writes holds after the stretch what it held before. -/
macro "not_written" : tactic => `(tactic| exact StableHlo.after_of_forall_not_mem _ _ (List.forall_iff_forall_mem.mp (by
  simp only [hostOps0, hostOps0_1, hostOps0_2, hostOps1, hostOps2, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

/-- One boundary back through a host stretch. -/
macro "hop" : tactic => `(tactic| refine Eq.trans (by not_written) ?_)
/-- One boundary back through the first region, for a buffer that is none of its arrays. -/
macro "hop4" : tactic => `(tactic| refine Eq.trans (W4_of_ne _ _ _ _ (by decide)) ?_)
/-- One boundary back through the second region, for a buffer that is none of its arrays. -/
macro "hop6" : tactic => `(tactic| refine Eq.trans (W6_of_ne _ _ _ _ (by decide)) ?_)

variable (m : (ℓ : Loc nD τ sig) → Buf (Elt Ideal) ℓ) (ρ : Dev nD → PrngReg) (c : Dev nD)

/-! ## The argument arrays where they are read -/

theorem W3_arg0 : W3 m ρ c (Proc.devRef .tc main_arg0) = m ((c : Thread nD τ).loc main_arg0) := by
  hop; hop; hop; rfl
theorem W3_arg2 : W3 m ρ c (Proc.devRef .tc main_arg2) = m ((c : Thread nD τ).loc main_arg2) := by
  hop; hop; hop; rfl
theorem W4_arg3 : W4 m ρ c (Proc.devRef .tc main_arg3) = m ((c : Thread nD τ).loc main_arg3) := by
  hop4; hop; hop; hop; rfl
theorem W4_arg4 : W4 m ρ c (Proc.devRef .tc main_arg4) = m ((c : Thread nD τ).loc main_arg4) := by
  hop4; hop; hop; hop; rfl
theorem W4_arg5 : W4 m ρ c (Proc.devRef .tc main_arg5) = m ((c : Thread nD τ).loc main_arg5) := by
  hop4; hop; hop; hop; rfl
theorem W4_arg6 : W4 m ρ c (Proc.devRef .tc main_arg6) = m ((c : Thread nD τ).loc main_arg6) := by
  hop4; hop; hop; hop; rfl
theorem W4_arg7 : W4 m ρ c (Proc.devRef .tc main_arg7) = m ((c : Thread nD τ).loc main_arg7) := by
  hop4; hop; hop; hop; rfl
theorem W5_arg8 : W5 m ρ c (Proc.devRef .tc main_arg8) = m ((c : Thread nD τ).loc main_arg8) := by
  hop; hop4; hop; hop; hop; rfl
theorem W6_arg9 : W6 m ρ c (Proc.devRef .tc main_arg9) = m ((c : Thread nD τ).loc main_arg9) := by
  hop6; hop; hop4; hop; hop; hop; rfl
theorem W6_arg11 : W6 m ρ c (Proc.devRef .tc main_arg11) = m ((c : Thread nD τ).loc main_arg11) := by
  hop6; hop; hop4; hop; hop; hop; rfl
theorem W7_arg10 : W7 m ρ c (Proc.devRef .tc main_arg10) = m ((c : Thread nD τ).loc main_arg10) := by
  hop; hop6; hop; hop4; hop; hop; hop; rfl

/-! ## The edge index vectors -/

/-- The source words of the edges (with the self-loops): the same vector the reference builds. -/
theorem W1_v5 : W1 m ρ c (Proc.devRef .tc main_v5)
    = Cert.ReferenceIdeal.ReadP.val_main_v5 (F := Ideal) (m ((c : Thread nD τ).loc main_arg1)) := by
  show StableHlo.after hostOps0 (W0 m ρ c) (Proc.devRef .tc main_v5) = _
  after_results
  rfl
/-- The target words of the edges (with the self-loops): the same vector the reference builds. -/
theorem W1_v6 : W1 m ρ c (Proc.devRef .tc main_v6)
    = Cert.ReferenceIdeal.ReadP.val_main_v6 (F := Ideal) (m ((c : Thread nD τ).loc main_arg1)) := by
  show StableHlo.after hostOps0 (W0 m ρ c) (Proc.devRef .tc main_v6) = _
  after_results
  rfl

theorem W4_v5 : W4 m ρ c (Proc.devRef .tc main_v5)
    = Cert.ReferenceIdeal.ReadP.val_main_v5 (F := Ideal) (m ((c : Thread nD τ).loc main_arg1)) := by
  hop4; hop; hop; exact W1_v5 m ρ c
theorem W4_v6 : W4 m ρ c (Proc.devRef .tc main_v6)
    = Cert.ReferenceIdeal.ReadP.val_main_v6 (F := Ideal) (m ((c : Thread nD τ).loc main_arg1)) := by
  hop4; hop; hop; exact W1_v6 m ρ c
theorem W6_v5 : W6 m ρ c (Proc.devRef .tc main_v5)
    = Cert.ReferenceIdeal.ReadP.val_main_v5 (F := Ideal) (m ((c : Thread nD τ).loc main_arg1)) := by
  hop6; hop; exact W4_v5 m ρ c
theorem W6_v6 : W6 m ρ c (Proc.devRef .tc main_v6)
    = Cert.ReferenceIdeal.ReadP.val_main_v6 (F := Ideal) (m ((c : Thread nD τ).loc main_arg1)) := by
  hop6; hop; exact W4_v6 m ρ c

/-! ## The column of normalisation factors -/

/-- Entering the first region the column is the factor vector, as a column. -/
theorem W3_v15_step : W3 m ρ c (Proc.devRef .tc main_v15)
    = shapeCast S100000x1 (W2 m ρ c (Proc.devRef .tc main_v14)) shapeCasts_S100000_S100000x1 := by
  show StableHlo.after hostOps0_2 (W2 m ρ c) (Proc.devRef .tc main_v15)
    = shapeCast S100000x1 (W2 m ρ c (Proc.devRef .tc main_v14)) shapeCasts_S100000_S100000x1
  generalize W2 m ρ c = Wv
  after_results
  rfl

/-- The factor vector is the selection, by the degree's positivity, of its inverse square root or zero. -/
theorem W2_v14_step : W2 m ρ c (Proc.devRef .tc main_v14)
    = select (W1 m ρ c (Proc.devRef .tc main_v12)) (W1 m ρ c (Proc.devRef .tc main_v13))
        (broadcastInDim S100000 ![] bcast_S_S100000 (W1 m ρ c (Proc.devRef .tc main_cst_2))) := by
  show StableHlo.after hostOps0_1 (W1 m ρ c) (Proc.devRef .tc main_v14) = _
  generalize W1 m ρ c = Wv
  after_results
  rfl

theorem W1_v12 : W1 m ρ c (Proc.devRef .tc main_v12)
    = Cert.ReferenceIdeal.ReadP.val_main_v12 (F := Ideal) (m ((c : Thread nD τ).loc main_arg1)) := by
  show StableHlo.after hostOps0 (W0 m ρ c) (Proc.devRef .tc main_v12) = _
  after_results
  rfl

theorem W1_v13 : W1 m ρ c (Proc.devRef .tc main_v13)
    = Cert.ReferenceIdeal.ReadP.val_main_v13 (F := Ideal) (m ((c : Thread nD τ).loc main_arg1)) := by
  show StableHlo.after hostOps0 (W0 m ρ c) (Proc.devRef .tc main_v13) = _
  after_results
  rfl

theorem W1_cst_2 : W1 m ρ c (Proc.devRef .tc main_cst_2) = Cert.ReferenceIdeal.ReadP.val_main_cst_2 (F := Ideal) := by
  show StableHlo.after hostOps0 (W0 m ρ c) (Proc.devRef .tc main_cst_2) = _
  after_results
  rfl

theorem W2_v14 : W2 m ρ c (Proc.devRef .tc main_v14)
    = Cert.ReferenceIdeal.ReadP.val_main_v14 (F := Ideal) (m ((c : Thread nD τ).loc main_arg1)) := by
  rw [W2_v14_step, W1_v12, W1_v13, W1_cst_2]
  rfl

theorem W3_v15 : W3 m ρ c (Proc.devRef .tc main_v15)
    = shapeCast S100000x1 (Cert.ReferenceIdeal.ReadP.val_main_v14 (F := Ideal) (m ((c : Thread nD τ).loc main_arg1)))
        shapeCasts_S100000_S100000x1 := by
  rw [W3_v15_step, W2_v14]

theorem W5_v15 : W5 m ρ c (Proc.devRef .tc main_v15) = W3 m ρ c (Proc.devRef .tc main_v15) := by
  hop
  exact (W4_arr m ρ c 2).trans (((dat0 (V3 m ρ) c).arrAt_in 2 rfl _).trans (A_eq0 (V3 m ρ) c 2))

theorem W7_v15 : W7 m ρ c (Proc.devRef .tc main_v15) = W3 m ρ c (Proc.devRef .tc main_v15) := by
  hop
  exact ((W6_arr m ρ c 1).trans (((dat1 (V5 m ρ) c).arrAt_in 1 rfl _).trans (A_eq1 (V5 m ρ) c 1))).trans (W5_v15 m ρ c)

/-- The factor of node r, read off the column. -/
theorem col_entry (r : Fin 100000) :
    arr S100000x1 (W3 m ρ c (Proc.devRef .tc main_v15)) (ix2 r (0 : Fin 1))
      = arr Cert.ReferenceIdeal.S100000 (Cert.ReferenceIdeal.ReadP.val_main_v14 (F := Ideal) (m ((c : Thread nD τ).loc main_arg1))) (ix1 r) := by
  rw [W3_v15]
  exact Cert.Columns.shapeCast_a_a1_apply _ _ r 0

end Cert.KernelIdeal.Folds

end
-- ==== Proof.KernelRows.lean ====
/-
  The bias, batch-normalisation and final-bias rows the regions read, entry by entry.

  Before the second region the program reshapes five argument vectors of 128 entries — the first bias, the scale, the
  shift, the running mean and the running variance — to rows [1, 128], and before the third region the second bias
  (128 entries) and the final bias (40 entries) to rows [1, 128] and [1, 40]. A vector reshaped to a row keeps its
  entries in order, so the row reads at (0, k) entry k of the vector; and an argument vector holds its launch contents
  at the boundary where it is reshaped. So each row's entry (0, k) is entry k of the argument as launched.
-/
import proofs.«160650_j4501125726319_2_alg».proof.Proof.KernelFolds
import proofs.«160650_j4501125726319_2_alg».proof.Proof.LibRowCast

set_option maxRecDepth 16384

noncomputable section

namespace Cert.KernelIdeal.Rows

open Cert.KernelIdeal Cert.KernelIdeal.Gen Idealize.ShloMosaic Idealize.ShloMosaic.TcCoe Idealize.ShloMosaic.ValueIdx Idealize.SL.Sem
open Cert.GCN Cert.KernelIdeal.Folds

variable (m : (ℓ : Loc nD τ sig) → Buf (Elt Ideal) ℓ) (ρ : Dev nD → PrngReg) (c : Dev nD)

/-- Entering the second region the first bias row is the argument vector, reshaped to a row. -/
theorem W5_v28_step : W5 m ρ c (Proc.devRef .tc main_v28)
    = shapeCast S1x128 (W4 m ρ c (Proc.devRef .tc main_arg3)) shapeCasts_S128_S1x128 := by
  show StableHlo.after hostOps1 (W4 m ρ c) (Proc.devRef .tc main_v28)
    = shapeCast S1x128 (W4 m ρ c (Proc.devRef .tc main_arg3)) shapeCasts_S128_S1x128
  generalize W4 m ρ c = Wv
  after_results
  rfl

/-- Entry (0, k) of the first bias row is entry k of the argument vector as launched. -/
theorem row_v28 (k : Fin 128) :
    arr S1x128 (W5 m ρ c (Proc.devRef .tc main_v28)) (ix2 (0 : Fin 1) k)
      = arr S128 (m ((c : Thread nD τ).loc main_arg3)) (ix1 k) := by
  unfold arr
  rw [W5_v28_step, W4_arg3]
  exact Cert.RowCast.shapeCast_row_apply _ _ (0 : Fin 1) k

/-- Entering the second region the scale row is the argument vector, reshaped to a row. -/
theorem W5_v29_step : W5 m ρ c (Proc.devRef .tc main_v29)
    = shapeCast S1x128 (W4 m ρ c (Proc.devRef .tc main_arg4)) shapeCasts_S128_S1x128 := by
  show StableHlo.after hostOps1 (W4 m ρ c) (Proc.devRef .tc main_v29)
    = shapeCast S1x128 (W4 m ρ c (Proc.devRef .tc main_arg4)) shapeCasts_S128_S1x128
  generalize W4 m ρ c = Wv
  after_results
  rfl

/-- Entry (0, k) of the scale row is entry k of the argument vector as launched. -/
theorem row_v29 (k : Fin 128) :
    arr S1x128 (W5 m ρ c (Proc.devRef .tc main_v29)) (ix2 (0 : Fin 1) k)
      = arr S128 (m ((c : Thread nD τ).loc main_arg4)) (ix1 k) := by
  unfold arr
  rw [W5_v29_step, W4_arg4]
  exact Cert.RowCast.shapeCast_row_apply _ _ (0 : Fin 1) k

/-- Entering the second region the shift row is the argument vector, reshaped to a row. -/
theorem W5_v30_step : W5 m ρ c (Proc.devRef .tc main_v30)
    = shapeCast S1x128 (W4 m ρ c (Proc.devRef .tc main_arg5)) shapeCasts_S128_S1x128 := by
  show StableHlo.after hostOps1 (W4 m ρ c) (Proc.devRef .tc main_v30)
    = shapeCast S1x128 (W4 m ρ c (Proc.devRef .tc main_arg5)) shapeCasts_S128_S1x128
  generalize W4 m ρ c = Wv
  after_results
  rfl

/-- Entry (0, k) of the shift row is entry k of the argument vector as launched. -/
theorem row_v30 (k : Fin 128) :
    arr S1x128 (W5 m ρ c (Proc.devRef .tc main_v30)) (ix2 (0 : Fin 1) k)
      = arr S128 (m ((c : Thread nD τ).loc main_arg5)) (ix1 k) := by
  unfold arr
  rw [W5_v30_step, W4_arg5]
  exact Cert.RowCast.shapeCast_row_apply _ _ (0 : Fin 1) k

/-- Entering the second region the running mean row is the argument vector, reshaped to a row. -/
theorem W5_v31_step : W5 m ρ c (Proc.devRef .tc main_v31)
    = shapeCast S1x128 (W4 m ρ c (Proc.devRef .tc main_arg6)) shapeCasts_S128_S1x128 := by
  show StableHlo.after hostOps1 (W4 m ρ c) (Proc.devRef .tc main_v31)
    = shapeCast S1x128 (W4 m ρ c (Proc.devRef .tc main_arg6)) shapeCasts_S128_S1x128
  generalize W4 m ρ c = Wv
  after_results
  rfl

/-- Entry (0, k) of the running mean row is entry k of the argument vector as launched. -/
theorem row_v31 (k : Fin 128) :
    arr S1x128 (W5 m ρ c (Proc.devRef .tc main_v31)) (ix2 (0 : Fin 1) k)
      = arr S128 (m ((c : Thread nD τ).loc main_arg6)) (ix1 k) := by
  unfold arr
  rw [W5_v31_step, W4_arg6]
  exact Cert.RowCast.shapeCast_row_apply _ _ (0 : Fin 1) k

/-- Entering the second region the running variance row is the argument vector, reshaped to a row. -/
theorem W5_v32_step : W5 m ρ c (Proc.devRef .tc main_v32)
    = shapeCast S1x128 (W4 m ρ c (Proc.devRef .tc main_arg7)) shapeCasts_S128_S1x128 := by
  show StableHlo.after hostOps1 (W4 m ρ c) (Proc.devRef .tc main_v32)
    = shapeCast S1x128 (W4 m ρ c (Proc.devRef .tc main_arg7)) shapeCasts_S128_S1x128
  generalize W4 m ρ c = Wv
  after_results
  rfl

/-- Entry (0, k) of the running variance row is entry k of the argument vector as launched. -/
theorem row_v32 (k : Fin 128) :
    arr S1x128 (W5 m ρ c (Proc.devRef .tc main_v32)) (ix2 (0 : Fin 1) k)
      = arr S128 (m ((c : Thread nD τ).loc main_arg7)) (ix1 k) := by
  unfold arr
  rw [W5_v32_step, W4_arg7]
  exact Cert.RowCast.shapeCast_row_apply _ _ (0 : Fin 1) k

/-- Entering the third region the second bias row is the argument vector, reshaped to a row. -/
theorem W7_v45_step : W7 m ρ c (Proc.devRef .tc main_v45)
    = shapeCast S1x128 (W6 m ρ c (Proc.devRef .tc main_arg9)) shapeCasts_S128_S1x128 := by
  show StableHlo.after hostOps2 (W6 m ρ c) (Proc.devRef .tc main_v45)
    = shapeCast S1x128 (W6 m ρ c (Proc.devRef .tc main_arg9)) shapeCasts_S128_S1x128
  generalize W6 m ρ c = Wv
  after_results
  rfl

/-- Entry (0, k) of the second bias row is entry k of the argument vector as launched. -/
theorem row_v45 (k : Fin 128) :
    arr S1x128 (W7 m ρ c (Proc.devRef .tc main_v45)) (ix2 (0 : Fin 1) k)
      = arr S128 (m ((c : Thread nD τ).loc main_arg9)) (ix1 k) := by
  unfold arr
  rw [W7_v45_step, W6_arg9]
  exact Cert.RowCast.shapeCast_row_apply _ _ (0 : Fin 1) k

/-- Entering the third region the final bias row is the argument vector, reshaped to a row. -/
theorem W7_v46_step : W7 m ρ c (Proc.devRef .tc main_v46)
    = shapeCast S1x40 (W6 m ρ c (Proc.devRef .tc main_arg11)) shapeCasts_S40_S1x40 := by
  show StableHlo.after hostOps2 (W6 m ρ c) (Proc.devRef .tc main_v46)
    = shapeCast S1x40 (W6 m ρ c (Proc.devRef .tc main_arg11)) shapeCasts_S40_S1x40
  generalize W6 m ρ c = Wv
  after_results
  rfl

/-- Entry (0, o) of the final bias row is entry o of the argument vector as launched. -/
theorem row_v46 (o : Fin 40) :
    arr S1x40 (W7 m ρ c (Proc.devRef .tc main_v46)) (ix2 (0 : Fin 1) o)
      = arr S40 (m ((c : Thread nD τ).loc main_arg11)) (ix1 o) := by
  unfold arr
  rw [W7_v46_step, W6_arg11]
  exact Cert.RowCast.shapeCast_row_apply _ _ (0 : Fin 1) o

end Cert.KernelIdeal.Rows

end
-- ==== Proof.LibScatterRows.lean ====
/-
  A scatter-add of whole rows, read at an index.

  Adding the rows of an update matrix `upd : [R, D]` into the rows of an operand `x : [N, D]` at the row numbers held in
  an integer column `idx : [R, 1]` is a scatter whose row axis is the inserted (one-element) window axis named by the
  scatter index, and whose column axis is the one update window axis. Update element `(e, c)` lands at row `idx[e, 0]`
  — read as a signed integer and NOT clamped: an update whose row number is outside `[0, N − 1]` is dropped — and
  column `c`. So at the extended reals element `(r, c)` of the result is

      x[r, c] + ∑ over the update rows e with idx[e, 0] = r of upd[e, c].

  The rank-1 form (operand `[N]`, indices `[R, 1]`, updates `[R]`) has no window axis at all: update element `e` lands
  at position `idx[e, 0]`, and element `r` of the result is `x[r] + ∑ over e with idx[e, 0] = r of upd[e]`.
-/
import Idealize.ShloMosaic.PureOps
import Idealize.ShloMosaic.PureOps.Ideal
import Idealize.ShloMosaic.Lib.ValueIdx

namespace Cert.Lib.ScatterRows

open Idealize.ShloMosaic Idealize.ShloMosaic.ValueIdx
open scoped BigOperators

/-- WHERE AN UPDATE LANDS: update index `j` lands at operand index `i` exactly when on every operand axis the signed
    start plus the window coordinate is `i`'s coordinate (being a coordinate of `i`, that number is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hEq a
      have := h a
      rw [← hEq]
      show _ = (((d.start j idx a + (d.window j a : Int)).toNat : Nat) : Int)
      omega
    · intro hEq
      funext a
      refine Fin.ext ?_
      show (d.start j idx a + (d.window j a : Int)).toNat = (i a).val
      have := hEq a
      omega
  · rename_i h
    constructor
    · intro hEq; exact absurd hEq (by simp)
    · intro hEq
      exfalso; apply h
      intro a
      have := hEq a
      have := (i a).isLt
      omega

/-! ## Rows of a matrix -/

/-- The dimension numbers of that scatter for an operand `[N, D]`, scatter indices `[R, 1]` and updates `[R, D]`. -/
abbrev rowsDims (N R D : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

section Rows
variable {N R D w : Nat} (wf : ScatterDims.WF ⟨2, ![N, D]⟩ ⟨2, ![R, 1]⟩ ⟨2, ![R, D]⟩ [1] [0] [0] 1)

/-- The row axis is the one the scatter index names: its start is the row number `idx[e, 0]`, read signed. -/
theorem rows_start_row (idx : IVec ⟨2, ![R, 1]⟩ w) (e : Fin R) (c' : Fin D) :
    (rowsDims N R D wf).start (ix2 e c') idx (0 : Fin 2) = (idx (ix2 e (0 : Fin 1))).toInt := by
  unfold ScatterDims.start
  rw [dif_pos (show (0 : Fin 2) ∈ (rowsDims N R D wf).scatterDimsToOperandDims from List.mem_singleton.mpr rfl)]
  have hsi : (rowsDims N R D wf).siIdx (ix2 e c') ⟨List.idxOf (0 : Fin 2) (rowsDims N R D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the scatter index: its start is `0`. -/
theorem rows_start_col (idx : IVec ⟨2, ![R, 1]⟩ w) (j : (⟨2, ![R, D]⟩ : Shape).Idx) :
    (rowsDims N R D wf).start j idx (1 : Fin 2) = 0 := by
  unfold ScatterDims.start
  rw [dif_neg (show (1 : Fin 2) ∉ ([0] : List (Fin 2)) by decide)]

/-- The row axis is an inserted window axis: no window coordinate. -/
theorem rows_window_row (j : (⟨2, ![R, D]⟩ : Shape).Idx) : (rowsDims N R D wf).window j (0 : Fin 2) = 0 := by
  unfold ScatterDims.window
  have h0 : (0 : Fin 2) ∉ (List.finRange 2).filter (· ∉ ([0] : List (Fin 2))) := by decide
  rw [dif_neg (show (0 : Fin 2) ∉ (rowsDims N R D wf).sKept from h0)]

/-- The column axis is the window axis: its window coordinate is the update's column. -/
theorem rows_window_col (e : Fin R) (c' : Fin D) : (rowsDims N R D wf).window (ix2 e c') (1 : Fin 2) = c'.val := by
  unfold ScatterDims.window
  have h1 : (1 : Fin 2) ∈ (List.finRange 2).filter (· ∉ ([0] : List (Fin 2))) := by decide
  rw [dif_pos (show (1 : Fin 2) ∈ (rowsDims N R D wf).sKept from h1)]
  rfl

/-- WHERE UPDATE ELEMENT `(e, c')` LANDS: at `(r, c)` exactly when its row number `idx[e, 0]`, read signed, is `r` and its
    column is `c`. -/
theorem rows_resultIdx?_iff (idx : IVec ⟨2, ![R, 1]⟩ w) (e : Fin R) (c' : Fin D) (r : Fin N) (c : Fin D) :
    (rowsDims N R D wf).resultIdx? (ix2 e c') idx = some (ix2 r c)
      ↔ (idx (ix2 e (0 : Fin 1))).toInt = (r.val : Int) ∧ c' = c := by
  rw [resultIdx?_eq_some_iff]
  constructor
  · intro h
    have h0 := h (0 : Fin 2)
    have h1 := h (1 : Fin 2)
    rw [rows_start_row, rows_window_row] at h0
    rw [rows_start_col, rows_window_col] at h1
    have h0' : (idx (ix2 e (0 : Fin 1))).toInt + ((0 : Nat) : Int) = (r.val : Int) := h0
    have h1' : (0 : Int) + (c'.val : Int) = (c.val : Int) := h1
    exact ⟨by omega, Fin.ext (by omega)⟩
  · rintro ⟨h0, rfl⟩ a
    match a with
    | ⟨0, _⟩ =>
      show (rowsDims N R D wf).start (ix2 e c') idx (0 : Fin 2) + ((rowsDims N R D wf).window (ix2 e c') (0 : Fin 2) : Int)
        = (r.val : Int)
      rw [rows_start_row, rows_window_row]; omega
    | ⟨1, _⟩ =>
      show (rowsDims N R D wf).start (ix2 e c') idx (1 : Fin 2) + ((rowsDims N R D wf).window (ix2 e c') (1 : Fin 2) : Int)
        = (c'.val : Int)
      rw [rows_start_col, rows_window_col]; omega

/-- THE SCATTER-ADD READ AT `(r, c)`: the operand's element plus the sum, over the update rows whose row number
    `idx[e, 0]` (read signed) is `r`, of their elements in column `c`. -/
theorem scatterAdd_rows_apply (x : (⟨2, ![N, D]⟩ : Shape).Idx → EReal) (idx : IVec ⟨2, ![R, 1]⟩ w)
    (upd : (⟨2, ![R, D]⟩ : Shape).Idx → EReal) (r : Fin N) (c : Fin D) :
    Ideal.hostScatterAdd (rowsDims N R D wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  by_cases he : (idx (ix2 e (0 : Fin 1))).toInt = (r.val : Int)
  · rw [if_pos he]
    refine (Finset.sum_congr rfl fun c' _ =>
      if_congr ((rows_resultIdx?_iff wf idx e c' r c).trans (and_iff_right he)) rfl rfl).trans ?_
    exact (Finset.sum_ite_eq' Finset.univ c fun c' => upd (ix2 e c')).trans (if_pos (Finset.mem_univ c))
  · rw [if_neg he]
    exact Finset.sum_eq_zero fun c' _ =>
      if_neg fun h => he ((rows_resultIdx?_iff wf idx e c' r c).mp h).1

end Rows

/-! ## Elements of a vector -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of the rank-1 scatter: an operand `[N]`, scatter indices `[R, 1]` and updates `[R]`; the
    operand's one axis is the inserted window axis the scatter index names, and the updates have no window axis. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)

/-- The one operand axis is named by the scatter index: its start is the position `idx[e, 0]`, read signed. -/
theorem vec_start (idx : IVec ⟨2, ![R, 1]⟩ w) (e : Fin R) :
    (vecDims N R wf).start (ix1 e) idx (0 : Fin 1) = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: no window coordinate. -/
theorem vec_window (j : (⟨1, ![R]⟩ : Shape).Idx) : (vecDims N R wf).window j (0 : Fin 1) = 0 := by
  unfold ScatterDims.window
  have h0 : (0 : Fin 1) ∉ (List.finRange 1).filter (· ∉ ([0] : List (Fin 1))) := by decide
  rw [dif_neg (show (0 : Fin 1) ∉ (vecDims N R wf).sKept from h0)]

/-- WHERE UPDATE ELEMENT `e` LANDS: at `r` exactly when its position `idx[e, 0]`, read signed, is `r`. -/
theorem vec_resultIdx?_iff (idx : IVec ⟨2, ![R, 1]⟩ w) (e : Fin R) (r : Fin N) :
    (vecDims N R wf).resultIdx? (ix1 e) idx = some (ix1 r) ↔ (idx (ix2 e (0 : Fin 1))).toInt = (r.val : Int) := by
  rw [resultIdx?_eq_some_iff]
  constructor
  · intro h
    have h0 := h (0 : Fin 1)
    rw [vec_start, vec_window] at h0
    have h0' : (idx (ix2 e (0 : Fin 1))).toInt + ((0 : Nat) : Int) = (r.val : Int) := h0
    omega
  · intro h0 a
    obtain rfl : a = 0 := Subsingleton.elim _ _
    show (vecDims N R wf).start (ix1 e) idx (0 : Fin 1) + ((vecDims N R wf).window (ix1 e) (0 : Fin 1) : Int) = (r.val : Int)
    rw [vec_start, vec_window]; omega

/-- THE RANK-1 SCATTER-ADD READ AT `r`: the operand's element plus the sum of the update elements whose position
    `idx[e, 0]` (read signed) is `r`. -/
theorem scatterAdd_vec_apply (x : (⟨1, ![N]⟩ : Shape).Idx → EReal) (idx : IVec ⟨2, ![R, 1]⟩ w)
    (upd : (⟨1, ![R]⟩ : Shape).Idx → EReal) (r : Fin N) :
    Ideal.hostScatterAdd (vecDims N R wf) x idx upd (ix1 r)
      = x (ix1 r) + ∑ e : Fin R, if (idx (ix2 e (0 : Fin 1))).toInt = (r.val : Int) then upd (ix1 e) else 0 := by
  unfold Ideal.hostScatterAdd
  congr 1
  rw [Finset.sum_filter, sum_idx1]
  exact Finset.sum_congr rfl fun e _ => if_congr (vec_resultIdx?_iff wf idx e r) rfl rfl

end Vec

end Cert.Lib.ScatterRows
-- ==== Proof.LibGatherRows.lean ====
/-
  A gather of whole rows, read at an index.

  Taking rows of a matrix `x : [N, D]` at an integer column of row numbers `idx : [R, 1]` is a gather that collapses the
  row axis, keeps the column axis as its one offset axis (slices of one row, `D` wide) and reads each start index off
  `idx`'s second axis. Its element `(r, d)` is `x` at row `idx[r, 0]` — read as a signed integer and clamped into
  `[0, N − 1]`, as every start index of a gather is — and column `d`.
-/
import Idealize.ShloMosaic.PureOps
import Idealize.ShloMosaic.Lib.ValueIdx

namespace Cert.Lib.GatherRows

open Idealize.ShloMosaic Idealize.ShloMosaic.ValueIdx

variable {α : Type}

/-- The dimension numbers of that gather for an operand `[N, D]`, start indices `[R, 1]` and a result `[R, D]`. -/
abbrev rowsDims (N R D : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Where result index `(r, d)` reads its row number: `[r, 0]`. -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, d)`: the operand at the row `idx[r, 0]`, read signed and clamped into `[0, N − 1]`, and
    column `d`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N R D wf) x idx y
      = x (ix2 (⟨min (idx (rowsIdx y)).toInt.toNat (N - 1), by omega⟩ : Fin N) (⟨(y 1).val, idx2_lt1 y⟩ : Fin D)) := by
  unfold Host.gather
  congr 1
  funext a
  refine Fin.ext ?_
  show (rowsDims N R D wf).start y idx a + (rowsDims N R D wf).batchCoord y a + (rowsDims N R D wf).offCoord y a = _
  rw [GatherDims.batchCoord_eq_zero _ _ _ List.not_mem_nil, Nat.add_zero]
  -- the row axis: collapsed (no offset), its start the clamped row number
  have row : (rowsDims N R D wf).start y idx (0 : Fin 2) + (rowsDims N R D wf).offCoord y (0 : Fin 2)
      = min (idx (rowsIdx y)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N R D wf).startIndexMap from List.mem_singleton.mpr rfl)]
    have hsi : (rowsDims N R D wf).siIdx y ⟨List.idxOf (0 : Fin 2) (rowsDims N R D wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  -- the column axis: not in the start index map (start 0), the result's offset axis
  have col : (rowsDims N R D wf).start y idx (1 : Fin 2) + (rowsDims N R D wf).offCoord y (1 : Fin 2) = (y 1).val := by
    have h1 : (1 : Fin 2) ∉ ([0] : List (Fin 2)) := by decide
    have hk : (1 : Fin 2) ∈ (rowsDims N R D wf).sKept := (GatherDims.mem_sKept _ _).mpr ⟨h1, List.not_mem_nil⟩
    unfold GatherDims.start GatherDims.offCoord
    rw [dif_neg h1, dif_pos hk, Nat.zero_add]
    rfl
  match a with
  | ⟨0, _⟩ => exact row
  | ⟨1, _⟩ => exact col

end Cert.Lib.GatherRows
-- ==== Proof.Deliver.lean ====
/-
  What the edges deliver, read entry by entry.

  Between two regions the program gathers, for every edge, the row of a node array at the edge's source, and adds
  the gathered rows into a zero array at the edges' targets. The gather reads its row number from the source
  word with the node count added when the word is negative, signed and clamped into the rows; the scatter-add
  reads the target word signed and drops an edge whose target is no row. So entry (r, k) of the result is the
  zero word plus the sum, over the edges whose target is r, of entry k of the source node's row: the delivered
  sum of the specification.
-/
import proofs.«160650_j4501125726319_2_alg».proof.KernelIdeal
import proofs.«160650_j4501125726319_2_alg».proof.Proof.Gen.KernelIdeal
import proofs.«160650_j4501125726319_2_alg».proof.Proof.Spec
import proofs.«160650_j4501125726319_2_alg».proof.Proof.Edges
import proofs.«160650_j4501125726319_2_alg».proof.Proof.LibScatterRows
import proofs.«160650_j4501125726319_2_alg».proof.Proof.LibGatherRows
import Idealize.ShloMosaic.Lib.Pipeline.Value
import Idealize.ShloMosaic.Lib.ValueIdx

set_option maxRecDepth 16384

noncomputable section

namespace Cert.KernelIdeal.Deliver

open Cert.KernelIdeal Cert.KernelIdeal.Facts₀ Cert.KernelIdeal.Facts Idealize.ShloMosaic Idealize.ShloMosaic.ValueIdx Cert.GCN
open scoped BigOperators

/-- An index vector made a column reads, at (e, u), the vector's entry e. -/
theorem bcast_col_apply {α : Type} {R : Nat} (hR : R ≠ 1) (v : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h v (ix2 e u) = v (ix1 e) :=
  broadcastInDim_apply ![0] h v (ix2 e u) (ix1 e) (fun a => by
    obtain rfl : a = 0 := Subsingleton.elim _ _
    show e.val = if R = 1 then 0 else e.val
    rw [if_neg hR])

/-- The program's scatter of whole rows is well formed at the literal dimension numbers … -/
theorem scatter_rows_wf : ScatterDims.WF ⟨2, ![100000, 128]⟩ ⟨2, ![1700000, 1]⟩ ⟨2, ![1700000, 128]⟩ [1] [0] [0] 1 :=
  scatter_S100000x128_S1700000x1_S1700000x128_1_0_0_1.wf

/-- … so it is the rows scatter read in LibScatterRows. -/
theorem scatter_rows_dims : scatter_S100000x128_S1700000x1_S1700000x128_1_0_0_1
    = Cert.Lib.ScatterRows.rowsDims 100000 1700000 128 scatter_rows_wf := rfl

/-- The program's gather of whole rows is well formed at the literal dimension numbers … -/
theorem gather_rows_wf : GatherDims.WF ⟨2, ![100000, 128]⟩ ⟨2, ![1700000, 1]⟩ ⟨2, ![1700000, 128]⟩ [1] [0] [] [0] [] 1 ![1, 128] :=
  gather_S100000x128_S1700000x1_S1700000x128_1_0_n_n_0_1_1128.wf

/-- … so it is the rows gather read in LibGatherRows. -/
theorem gather_rows_dims : gather_S100000x128_S1700000x1_S1700000x128_1_0_n_n_0_1_1128
    = Cert.Lib.GatherRows.rowsDims 100000 1700000 128 gather_rows_wf := rfl

/-- Every entry of the array the messages are added into is the zero word. -/
theorem zero_entry (r : Fin 100000) (k : Fin 128) :
    broadcastInDim S100000x128 ![] bcast_S_S100000x128 (constant (F := Ideal) S_ .f32 0x00000000#32) (ix2 r k) = zero :=
  broadcastInDim_apply _ bcast_S_S100000x128 _ (ix2 r k) (fun a => a.elim0) (fun a => a.elim0)

/-- The word a gather reads, entry by entry: the node count added where the word is negative. -/
theorem wrap_entry (row : IVec S1700000 32) (e : Fin 1700000) :
    select (cmpi .slt row (broadcastInDim S1700000 ![] bcast_S_S1700000 (constantI S_ 32 0#32)))
      (addi row (broadcastInDim S1700000 ![] bcast_S_S1700000 (constantI S_ 32 100000#32))) row (ix1 e) = wrapW (row (ix1 e)) := by
  unfold wrapW
  rw [select_apply]
  rfl

/-- The gathered array at (e, k): entry k of the row whose number is edge e's word, signed and clamped. -/
theorem gather_entry (idxv : IVec S1700000 32) (H : FVec Ideal S100000x128 .bf16) (e : Fin 1700000) (k : Fin 128) :
    extf .f32 (Host.gather gather_S100000x128_S1700000x1_S1700000x128_1_0_n_n_0_1_1128 H
        (broadcastInDim S1700000x1 ![0] bcast_S1700000_S1700000x1_0 idxv)) bitsLt_bf16_f32 (ix2 e k)
      = H (ix2 (⟨min (idxv (ix1 e)).toInt.toNat (100000 - 1), by omega⟩ : Fin 100000) k) := by
  rw [extf_apply, gather_rows_dims, Cert.Lib.GatherRows.gather_rows_apply (by decide)]
  refine congrArg H (congrArg₂ ix2 (Fin.ext ?_) (Fin.ext rfl))
  have hi : Cert.Lib.GatherRows.rowsIdx (ix2 e k) = ix2 e (0 : Fin 1) := by
    funext a; refine Fin.ext ?_
    match a with
    | ⟨0, _⟩ => rfl
    | ⟨1, _⟩ => rfl
  show min (broadcastInDim S1700000x1 ![0] bcast_S1700000_S1700000x1_0 idxv (Cert.Lib.GatherRows.rowsIdx (ix2 e k))).toInt.toNat (100000 - 1)
    = min (idxv (ix1 e)).toInt.toNat (100000 - 1)
  rw [hi, bcast_col_apply (by decide)]

/-- The scatter-add at (r, k): the operand's entry plus the updates of the edges whose word, signed, is r. -/
theorem scatter_entry (x : FVec Ideal S100000x128 .f32) (colv : IVec S1700000 32) (upd : FVec Ideal S1700000x128 .f32) (r : Fin 100000) (k : Fin 128) :
    Host.scatterAdd scatter_S100000x128_S1700000x1_S1700000x128_1_0_0_1 x
        (broadcastInDim S1700000x1 ![0] bcast_S1700000_S1700000x1_0 colv) upd (ix2 r k)
      = x (ix2 r k) + ∑ e : Fin 1700000, if (colv (ix1 e)).toInt = (r.val : Int) then upd (ix2 e k) else 0 := by
  unfold Host.scatterAdd
  rw [Ideal.hostScatterAdd_def, scatter_rows_dims, Cert.Lib.ScatterRows.scatterAdd_rows_apply]
  refine congrArg (fun z : EReal => x (ix2 r k) + z) (Finset.sum_congr rfl fun e _ => ?_)
  rw [bcast_col_apply (by decide)]

/-- The rows of H gathered at the wrapped source words and added into zeros at the target words, at (r, k). -/
theorem deliver_entry (col row : IVec S1700000 32) (H : FVec Ideal S100000x128 .bf16) (r : Fin 100000) (k : Fin 128) :
    arr S100000x128
      (Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 col)
        (extf .f32 (Host.gather gather_S100000x128_S1700000x1_S1700000x128_1_0_n_n_0_1_1128 H
          (broadcastInDim S1700000x1 ![0] bcast_S1700000_S1700000x1_0
            (select (cmpi .slt row (broadcastInDim S1700000 ![] bcast_S_S1700000 (constantI S_ 32 0#32)))
              (addi row (broadcastInDim S1700000 ![] bcast_S_S1700000 (constantI S_ 32 100000#32))) row)))
          bitsLt_bf16_f32)) (ix2 r k)
      = prop (tgt col) (node row) (fun i j => H (ix2 i j)) r k := by
  unfold arr
  rw [scatter_entry, zero_entry]
  unfold prop
  refine congrArg (fun z : EReal => zero + z) (Finset.sum_congr rfl fun e _ => ?_)
  refine if_congr Iff.rfl ?_ rfl
  rw [gather_entry]
  refine congrArg H (congrArg₂ ix2 (Fin.ext ?_) rfl)
  show min ((select (cmpi .slt row (broadcastInDim S1700000 ![] bcast_S_S1700000 (constantI S_ 32 0#32)))
      (addi row (broadcastInDim S1700000 ![] bcast_S_S1700000 (constantI S_ 32 100000#32))) row) (ix1 e)).toInt.toNat (100000 - 1)
    = (node row e).val
  rw [wrap_entry]
  rfl

end Cert.KernelIdeal.Deliver

end
-- ==== Proof.KernelHost.lean ====
/-
  What the two host stretches between the kernel's regions deliver, entry by entry.

  After the first region, and again after the second, the program sends every edge's message: it gathers the row
  of the region's output at the edge's source word (the node count added when the word is negative) and adds the
  gathered rows into a zero array at the edges' target words. The index vectors are the ones written before the
  first region, unchanged at both boundaries. So entry (r, k) of the array the next region receives is the zero
  word plus the sum, over the edges whose target is r, of entry k of the source node's row of the previous
  region's output: the delivered sum of the specification.
-/
import proofs.«160650_j4501125726319_2_alg».proof.Proof.KernelFolds
import proofs.«160650_j4501125726319_2_alg».proof.Proof.Deliver

set_option maxRecDepth 16384

noncomputable section

namespace Cert.KernelIdeal.HostStretch

open Cert.KernelIdeal Cert.KernelIdeal.Gen Idealize.ShloMosaic Idealize.ShloMosaic.TcCoe Idealize.ShloMosaic.ValueIdx Idealize.SL.Sem
open Cert.GCN Cert.KernelIdeal.Folds

variable (m : (ℓ : Loc nD τ sig) → Buf (Elt Ideal) ℓ) (ρ : Dev nD → PrngReg) (c : Dev nD)

/-- The array the second region receives, as the operations of the stretch before it leave it: the rows of the first
    region's output gathered at the wrapped source words and added into zeros at the target words. -/
theorem host1_step :
    W5 m ρ c (Proc.devRef .tc main_v27)
      = Host.scatterAdd scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 (W4 m ρ c (Proc.devRef .tc main_v6)))
          (extf .f32 (Host.gather gather_S100000x128_S1700000x1_S1700000x128_1_0_n_n_0_1_1128 (W4 m ρ c (Proc.devRef .tc main_v16))
            (broadcastInDim S1700000x1 ![0] bcast_S1700000_S1700000x1_0
              (select (cmpi .slt (W4 m ρ c (Proc.devRef .tc main_v5)) (broadcastInDim S1700000 ![] bcast_S_S1700000 (constantI S_ 32 0#32)))
                (addi (W4 m ρ c (Proc.devRef .tc main_v5)) (broadcastInDim S1700000 ![] bcast_S_S1700000 (constantI S_ 32 100000#32)))
                (W4 m ρ c (Proc.devRef .tc main_v5)))))
            bitsLt_bf16_f32) := by
  show StableHlo.after hostOps1 (W4 m ρ c) (Proc.devRef .tc main_v27) = _
  generalize W4 m ρ c = Wv
  after_results

theorem host1_entry (r : Fin 100000) (k : Fin 128) :
    arr S100000x128 (W5 m ρ c (Proc.devRef .tc main_v27)) (ix2 r k)
      = prop (tgt (Cert.ReferenceIdeal.ReadP.val_main_v6 (F := Ideal) (m ((c : Thread nD τ).loc main_arg1)))) (node (Cert.ReferenceIdeal.ReadP.val_main_v5 (F := Ideal) (m ((c : Thread nD τ).loc main_arg1))))
          (fun i j => arr S100000x128 (W4 m ρ c (Proc.devRef .tc main_v16)) (ix2 i j)) r k := by
  rw [host1_step, W4_v6, W4_v5]
  exact Cert.KernelIdeal.Deliver.deliver_entry _ _ _ r k

/-- The array the third region receives, as the operations of the stretch before it leave it: the rows of the second
    region's second output gathered at the wrapped source words and added into zeros at the target words. -/
theorem host2_step :
    W7 m ρ c (Proc.devRef .tc main_v44)
      = Host.scatterAdd scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 (W6 m ρ c (Proc.devRef .tc main_v6)))
          (extf .f32 (Host.gather gather_S100000x128_S1700000x1_S1700000x128_1_0_n_n_0_1_1128 (W6 m ρ c (Proc.devRef .tc main_v33_1))
            (broadcastInDim S1700000x1 ![0] bcast_S1700000_S1700000x1_0
              (select (cmpi .slt (W6 m ρ c (Proc.devRef .tc main_v5)) (broadcastInDim S1700000 ![] bcast_S_S1700000 (constantI S_ 32 0#32)))
                (addi (W6 m ρ c (Proc.devRef .tc main_v5)) (broadcastInDim S1700000 ![] bcast_S_S1700000 (constantI S_ 32 100000#32)))
                (W6 m ρ c (Proc.devRef .tc main_v5)))))
            bitsLt_bf16_f32) := by
  show StableHlo.after hostOps2 (W6 m ρ c) (Proc.devRef .tc main_v44) = _
  generalize W6 m ρ c = Wv
  after_results

theorem host2_entry (r : Fin 100000) (k : Fin 128) :
    arr S100000x128 (W7 m ρ c (Proc.devRef .tc main_v44)) (ix2 r k)
      = prop (tgt (Cert.ReferenceIdeal.ReadP.val_main_v6 (F := Ideal) (m ((c : Thread nD τ).loc main_arg1)))) (node (Cert.ReferenceIdeal.ReadP.val_main_v5 (F := Ideal) (m ((c : Thread nD τ).loc main_arg1))))
          (fun i j => arr S100000x128 (W6 m ρ c (Proc.devRef .tc main_v33_1)) (ix2 i j)) r k := by
  rw [host2_step, W6_v6, W6_v5]
  exact Cert.KernelIdeal.Deliver.deliver_entry _ _ _ r k

end Cert.KernelIdeal.HostStretch

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.Region0.lean ====
/-
  The first dense layer's region: the node features times the first weight matrix, each row scaled by its node's
  factor.

  The region walks the 100000 rows in 25 blocks of 4000. At block t it holds rows 4000 t … 4000 t + 3999 of the
  feature array, the whole 128 × 128 weight array, and the same rows of the factor column, and writes the same rows of
  the output. Entry (p, q) of what it writes is the sum over the 128 contraction positions j of feature (p, j) times
  weight (j, q), times the factor of row p; at the extended reals the changes of float format are the identity and a
  product accumulated from zero is the plain sum. Every entry of a block therefore is the entry of ONE function of the
  three whole arrays at the block's place in the output, and the 25 blocks tile the output, so after the region entry
  (r, k) of the output is (∑ j, x (r, j) · w (j, k)) · d (r, 0).
-/
import proofs.«160650_j4501125726319_2_alg».proof.Proof.Gen.KernelIdeal.Frame
import proofs.«160650_j4501125726319_2_alg».proof.Proof.Spec
import proofs.«160650_j4501125726319_2_alg».proof.Proof.LibDotRows
import proofs.«160650_j4501125726319_2_alg».proof.Proof.LibColumns
import proofs.«160650_j4501125726319_2_alg».proof.Proof.LibRowBroadcast
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- A product of a [4000,128] block with a [128,128] block accumulated from zero, read at (p, q): the sum over the 128
    contraction positions of the left block's row p against the right block's column q. -/
theorem dot0_apply (l : FVec Ideal S4000x128 .bf16) (r : FVec Ideal S128x128 .bf16) (p : Fin 4000) (q : Fin 128) :
    FloatOps.matmul (F := Ideal) dot_S4000x128_S128x128_S4000x128_1_0_0_1_n_n none l r (constant S4000x128 .f32 0x00000000#32) (ix2 p q)
      = ∑ k : Fin 128, l (ix2 p k) * r (ix2 k q) := by
  rw [Ideal.matmul_constant_zero_apply]
  dot_rows dot_S4000x128_S128x128_S4000x128_1_0_0_1_n_n S4000x128 S128x128 128

/-- Entry (p, q) of the body's payload: the row p of the left block against column q of the weight block, summed over the
    128 contraction positions, times the row's factor. -/
theorem pay0_apply (x0 : Vec Ideal S4000x128 .f32) (x1 : Vec Ideal S128x128 .f32) (x2 : Vec Ideal S4000x1 .f32)
    (p : Fin 4000) (q : Fin 128) :
    (k0_pay1 (F := Ideal) x0 x1 x2 (ix2 p q) : EReal)
      = (∑ j : Fin 128, (x0 (ix2 p j) : EReal) * (x1 (ix2 j q) : EReal)) * (x2 (ix2 p (0 : Fin 1)) : EReal) := by
  unfold k0_pay1
  show (FloatOps.matmul (F := Ideal) dot_S4000x128_S128x128_S4000x128_1_0_0_1_n_n none (truncf .bf16 x0 bitsLt_bf16_f32) (truncf .bf16 x1 bitsLt_bf16_f32) (constant S4000x128 .f32 0x00000000#32) (ix2 p q) : EReal)
      * (broadcastTo S4000x128 (shapeCast S4000x1 x2 shapeCasts_S4000x1_S4000x1) broadcasts_S4000x1_S4000x128 (ix2 p q) : EReal) = _
  refine congrArg₂ (· * ·) (dot0_apply _ _ p q) ?_
  exact (Cert.Columns.broadcastTo_a1_ab_apply _ _ p q).trans (by rw [shapeCast_self])

/-! ## From the blocks to the array -/

/-- Entry (r, k) of the product scaled row by row, as a function of the three whole arrays. -/
def rows0 (a0 : S100000x128.Idx → EReal) (a1 : S128x128.Idx → EReal) (a2 : S100000x1.Idx → EReal)
    (r : Fin 100000) (k : Fin 128) : EReal :=
  (∑ j : Fin 128, a0 (ix2 r j) * a1 (ix2 j k)) * a2 (ix2 r (0 : Fin 1))

/-- The same as an array over the output's index type. -/
def G0 (a0 : S100000x128.Idx → EReal) (a1 : S128x128.Idx → EReal) (a2 : S100000x1.Idx → EReal) :
    S100000x128.Idx → EReal := fun i => rows0 a0 a1 a2 (i 0) (i 1)

theorem zero_offsets0 : (![0, 0] : Fin 2 → Nat) = fun _ => 0 := funext fun a => by fin_cases a <;> rfl

/-- The block indices over the grid: at point t the left operand, the factor column and the output sit at block row t,
    block column 0; the weight block is always block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the left operand's block at point t is row 4000 t + p of the array. -/
theorem blk0_0 (c : Dev nD) (t : Fin cfg0.N) (p : Fin 4000) (j : Fin 128) (r : Fin 100000)
    (hr : r.val = 4000 * t.val + p.val) :
    ((iblk0 V c 0 t : Vec Ideal S4000x128 .f32) (ix2 p j) : EReal) = (V c main_arg0 : S100000x128.Idx → EReal) (ix2 r j) := by
  obtain ⟨e0, e1, -⟩ := idx_facts0 t
  unfold iblk0
  rw [View.read_apply]
  show (V c main_arg0 : S100000x128.Idx → EReal) _ = (V c main_arg0 : S100000x128.Idx → EReal) _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 128 + 1 * j.val = j.val; rw [e1]; omega

/-- The weight block at every point is the whole weight array. -/
theorem blk0_1 (c : Dev nD) (t : Fin cfg0.N) (j : Fin 128) (q : Fin 128) :
    ((iblk0 V c 1 t : Vec Ideal S128x128 .f32) (ix2 j q) : EReal) = (V c main_arg2 : S128x128.Idx → EReal) (ix2 j q) := by
  obtain ⟨-, -, e0, e1, -⟩ := idx_facts0 t
  unfold iblk0
  rw [View.read_apply]
  show (V c main_arg2 : S128x128.Idx → EReal) _ = (V c main_arg2 : S128x128.Idx → EReal) _
  congr 1
  funext a
  apply Fin.ext
  match a with
  | ⟨0, _⟩ => show win0_1.index t (0 : Fin 2) * 128 + 1 * j.val = j.val; rw [e0]; omega
  | ⟨1, _⟩ => show win0_1.index t (1 : Fin 2) * 128 + 1 * q.val = q.val; rw [e1]; omega

/-- Row p of the factor column's block at point t is row 4000 t + p of the column. -/
theorem blk0_2 (c : Dev nD) (t : Fin cfg0.N) (p : Fin 4000) (r : Fin 100000)
    (hr : r.val = 4000 * t.val + p.val) :
    ((iblk0 V c 2 t : Vec Ideal S4000x1 .f32) (ix2 p (0 : Fin 1)) : EReal) = (V c main_v15 : S100000x1.Idx → EReal) (ix2 r (0 : Fin 1)) := by
  obtain ⟨-, -, -, -, e0, e1, -⟩ := idx_facts0 t
  unfold iblk0
  rw [View.read_apply]
  show (V c main_v15 : S100000x1.Idx → EReal) _ = (V c main_v15 : S100000x1.Idx → EReal) _
  congr 1
  funext a
  apply Fin.ext
  match a with
  | ⟨0, _⟩ => show win0_2.index t (0 : Fin 2) * 4000 + 1 * p.val = r.val; rw [e0, hr]; omega
  | ⟨1, _⟩ => show win0_2.index t (1 : Fin 2) * 1 + 1 * 0 = 0; rw [e1]

/-- What point t writes back is block t of the one whole-array function. -/
theorem flushed0_eq (c : Dev nD) (t : Fin cfg0.N) :
    (dat0 V c).flushed 3 t = ((cfg0.win 3).blk t).view.read (Elt Ideal) (G0 (V c main_arg0) (V c main_arg2) (V c main_v15)) := by
  show (cfg0.win 3).cut (grid0.coords t) ((dat0 V c).after 3 t) = _
  rw [after0_3]
  unfold out0_3
  rw [View.canon_unit_zero zero_offsets0]
  simp only [View.ld_unit_zero (S := S4000x128) zero_offsets0, View.ld_unit_zero (S := S128x128) zero_offsets0, View.ld_unit_zero (S := S4000x1) zero_offsets0]
  funext y
  obtain ⟨p, q, rfl⟩ : ∃ (p : Fin 4000) (q : Fin 128), y = ix2 p q := ⟨y 0, y 1, eq_ix2 y⟩
  show (k0_pay1 (F := Ideal) (iblk0 V c 0 t) (iblk0 V c 1 t) (iblk0 V c 2 t) (ix2 p q) : EReal)
      = G0 (V c main_arg0) (V c main_arg2) (V c main_v15) (((cfg0.win 3).blk t).view.emb (ix2 p q))
  have ht : t.val < 25 := lt_of_lt_of_eq t.isLt N_0
  obtain ⟨-, -, -, -, -, -, e0, e1⟩ := idx_facts0 t
  obtain ⟨r, hr⟩ : ∃ r : Fin 100000, r.val = 4000 * t.val + p.val := ⟨⟨4000 * t.val + p.val, by have := p.isLt; omega⟩, rfl⟩
  have hemb : ((cfg0.win 3).blk t).view.emb (ix2 p q) = (ix2 r q : S100000x128.Idx) := by
    funext a
    apply Fin.ext
    match a with
    | ⟨0, _⟩ => show win0_3.index t (0 : Fin 2) * 4000 + 1 * p.val = r.val; rw [e0, hr]; omega
    | ⟨1, _⟩ => show win0_3.index t (1 : Fin 2) * 128 + 1 * q.val = q.val; rw [e1]; omega
  rw [hemb]
  refine (pay0_apply (iblk0 V c 0 t) (iblk0 V c 1 t) (iblk0 V c 2 t) p q).trans ?_
  show _ = rows0 (V c main_arg0) (V c main_arg2) (V c main_v15) r q
  unfold rows0
  rw [blk0_2 V c t p r hr]
  refine congrArg (· * _) (Finset.sum_congr rfl fun j _ => ?_)
  rw [blk0_0 V c t p j r hr, blk0_1 V c t j q]

/-- An index of the output array is in point t's block exactly when each coordinate is in the block's range. -/
theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v16).slice (win0_3.rect t)).set ↔ _
  rw [View.set_slice_whole, Rect.mem_set_unit]
  exact Iff.rfl

/-- Row r of the output lies in the block of point r / 4000: the 25 blocks of 4000 rows tile the 100000 rows. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, e0, e1⟩ := idx_facts0 t
  have e0' : win0_3.index t (0 : Fin 2) = (i 0).val / 4000 := e0
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The output array after the region: entry (r, k) is row r of the left operand against column k of the weights, times the
    row's factor. -/
theorem region0_out (c : Dev nD) (r : Fin 100000) (k : Fin 128) :
    Cert.GCN.arr S100000x128 ((dat0 V c).arrAt 3 cfg0.N) (ix2 r k)
      = (∑ j : Fin 128, Cert.GCN.arr S100000x128 (V c main_arg0) (ix2 r j) * Cert.GCN.arr S128x128 (V c main_arg2) (ix2 j k))
          * Cert.GCN.arr S100000x1 (V c main_v15) (ix2 r (0 : Fin 1)) := by
  have h := (dat0 V c).arrAt_eq_of_cover 3 (G0 (V c main_arg0) (V c main_arg2) (V c main_v15))
    (fun t _ => flushed0_eq V c t) cover0
  unfold Cert.GCN.arr
  rw [h]
  rfl

end Cert.KernelIdeal.Hand

end
-- ==== Proof.Region1.lean ====
/-
  The second of the three kernel regions: batch normalisation and rectifier of the scaled received rows, then the
  second layer's dense transform.

  The region walks 25 grid points. At point t it holds rows 4000 t … 4000 t + 3999 of the received sums a
  ([100000,128]) and of the column d of node factors ([100000,1]), and, whole, the five rows ([1,128]) of bias,
  running mean, running variance, scale and shift and the weight matrix W ([128,128]). It writes rows
  4000 t … 4000 t + 3999 of two outputs. Entry (p, q) of the first output's block is

      x1[p, q] = max ((((a[p, q] · d[p, 0] + bias[q]) − mean[q]) · rsqrt (var[q] + ε)) · scale[q] + shift[q]) 0,

  and entry (p, q) of the second output's block is (∑ j, x1[p, j] · W[j, q]) · d[p, 0]: a change of float format is
  the identity on the extended reals, and a matrix product into a zero accumulator is the plain sum over the
  contracted index.

  Both formulas read only row p of the row-blocked inputs and whole rows of the others, so what point t writes back is
  block t of ONE function of the arrays the region finds (out1xOf, out1hOf). Row r of an output lies in the block of point
  r / 4000, so the 25 blocks cover the array, and after the last point each output is that function, entry by entry.
-/
import proofs.«160650_j4501125726319_2_alg».proof.Proof.Gen.KernelIdeal.Frame
import proofs.«160650_j4501125726319_2_alg».proof.Proof.Spec
import proofs.«160650_j4501125726319_2_alg».proof.Proof.LibDotRows
import proofs.«160650_j4501125726319_2_alg».proof.Proof.LibColumns
import proofs.«160650_j4501125726319_2_alg».proof.Proof.LibRowBroadcast
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-! ## The two blocks a point writes, entry by entry -/

/-- Entry (p, q) of the first output's block: the scaled row entry, biased, normalised, scaled, shifted and rectified. -/
theorem pay1x_apply (v0 : Vec Ideal S4000x128 .f32) (v2 : Vec Ideal S4000x1 .f32) (v6 v10 v14 v21 v25 : Vec Ideal S1x128 .f32)
    (p : Fin 4000) (q : Fin 128) :
    (k1_pay2 v0 v2 v6 v10 v14 v21 v25 : S4000x128.Idx → EReal) (ix2 p q)
      = Cert.GCN.bnrelu ((v0 : S4000x128.Idx → EReal) (ix2 p q) * (v2 : S4000x1.Idx → EReal) (ix2 p (0 : Fin 1)))
          ((v6 : S1x128.Idx → EReal) (ix2 (0 : Fin 1) q)) ((v10 : S1x128.Idx → EReal) (ix2 (0 : Fin 1) q))
          ((v14 : S1x128.Idx → EReal) (ix2 (0 : Fin 1) q)) ((v21 : S1x128.Idx → EReal) (ix2 (0 : Fin 1) q))
          ((v25 : S1x128.Idx → EReal) (ix2 (0 : Fin 1) q)) := by
  unfold k1_pay2 Cert.GCN.bnrelu Cert.GCN.eps Cert.GCN.zero
  simp only [shapeCast_self]
  simp only [maximumf_apply, addf_apply, mulf_apply, subf_apply, broadcast_apply,
    Cert.Columns.broadcastTo_a1_ab_apply, Cert.RowBroadcast.broadcastTo_1b_ab_apply]
  rfl

/-- A product of a [4000,128] block with a [128,128] matrix into a zero accumulator, at entry (p, q): the sum over
    the contracted index of row p's entries times column q's. -/
theorem matmul1_apply (l : FVec Ideal S4000x128 .bf16) (r : FVec Ideal S128x128 .bf16) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  dot_rows dot_S4000x128_S128x128_S4000x128_1_0_0_1_n_n S4000x128 S128x128 128

/-- Entry (p, q) of the second output's block: row p of the first output's block times column q of the weights,
    scaled by row p's factor. -/
theorem pay1h_apply (v0 : Vec Ideal S4000x128 .f32) (v2 : Vec Ideal S4000x1 .f32) (v6 v10 v14 v21 v25 : Vec Ideal S1x128 .f32)
    (v33 : Vec Ideal S128x128 .f32) (v36 : Vec Ideal S4000x1 .f32) (p : Fin 4000) (q : Fin 128) :
    (k1_pay1 (k1_pay3 v0 v2 v6 v10 v14 v21 v25 v33) v36 : S4000x128.Idx → EReal) (ix2 p q)
      = (∑ j : Fin 128, Cert.GCN.bnrelu ((v0 : S4000x128.Idx → EReal) (ix2 p j) * (v2 : S4000x1.Idx → EReal) (ix2 p (0 : Fin 1)))
          ((v6 : S1x128.Idx → EReal) (ix2 (0 : Fin 1) j)) ((v10 : S1x128.Idx → EReal) (ix2 (0 : Fin 1) j))
          ((v14 : S1x128.Idx → EReal) (ix2 (0 : Fin 1) j)) ((v21 : S1x128.Idx → EReal) (ix2 (0 : Fin 1) j))
          ((v25 : S1x128.Idx → EReal) (ix2 (0 : Fin 1) j)) * (v33 : S128x128.Idx → EReal) (ix2 j q))
        * (v36 : S4000x1.Idx → EReal) (ix2 p (0 : Fin 1)) := by
  unfold k1_pay1 k1_pay3
  simp only [shapeCast_self]
  show (matmul dot_S4000x128_S128x128_S4000x128_1_0_0_1_n_n none (truncf .bf16 (k1_pay2 v0 v2 v6 v10 v14 v21 v25) bitsLt_bf16_f32)
      (truncf .bf16 v33 bitsLt_bf16_f32) (constant (F := Ideal) S4000x128 .f32 0x00000000#32) (ix2 p q))
        * (broadcastTo S4000x128 v36 broadcasts_S4000x1_S4000x128 (ix2 p q)) = _
  rw [matmul1_apply, Cert.Columns.broadcastTo_a1_ab_apply]
  refine congrArg (· * _) (Finset.sum_congr rfl fun j _ => ?_)
  show (k1_pay2 v0 v2 v6 v10 v14 v21 v25 : S4000x128.Idx → EReal) (ix2 p j) * (v33 : S128x128.Idx → EReal) (ix2 j q) = _
  rw [pay1x_apply]

/-! ## From the blocks to the arrays -/

/-- The zero offsets of a whole-block access. -/
theorem hz1 : (![0, 0] : Fin 2 → Nat) = fun _ => 0 := funext fun a => by fin_cases a <;> rfl

/-- The index maps over the grid of 25 points: the row-blocked windows (the two inputs with 100000 rows and the two
    outputs) are at block t on the row axis at point t; every other block index is 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- Row p of the block of point t is row 4000 t + p of the array. -/
def row1 (t : Fin cfg1.N) (p : Fin 4000) : Fin 100000 :=
  ⟨t.val * 4000 + p.val, by have ht : t.val < 25 := (show cfg1.N = 25 from N_1) ▸ t.isLt; have := p.isLt; omega⟩

/-! Where an entry of a window's block at point t sits in the window's array: on each axis at the block index times the
    block's extent plus the entry's own coordinate. -/

theorem emb1_0 (t : Fin cfg1.N) (p : Fin 4000) (q : Fin 128) :
    ((cfg1.win 0).blk t).view.emb (ix2 p q) = ix2 (row1 t p) q := by
  obtain ⟨e, e', -⟩ := idx_facts1 t
  funext a; apply Fin.ext
  match a with
  | ⟨0, _⟩ => show win1_0.index t (0 : Fin 2) * 4000 + 1 * p.val = t.val * 4000 + p.val; omega
  | ⟨1, _⟩ => show win1_0.index t (1 : Fin 2) * 128 + 1 * q.val = q.val; omega

theorem emb1_1 (t : Fin cfg1.N) (p : Fin 4000) :
    ((cfg1.win 1).blk t).view.emb (ix2 p (0 : Fin 1)) = ix2 (row1 t p) (0 : Fin 1) := by
  obtain ⟨-, -, e, e', -⟩ := idx_facts1 t
  funext a; apply Fin.ext
  match a with
  | ⟨0, _⟩ => show win1_1.index t (0 : Fin 2) * 4000 + 1 * p.val = t.val * 4000 + p.val; omega
  | ⟨1, _⟩ => show win1_1.index t (1 : Fin 2) * 1 + 1 * 0 = 0; omega

theorem emb1_2 (t : Fin cfg1.N) (q : Fin 128) :
    ((cfg1.win 2).blk t).view.emb (ix2 (0 : Fin 1) q) = ix2 (0 : Fin 1) q := by
  obtain ⟨-, -, -, -, e, e', -⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * q.val = q.val; omega

theorem emb1_3 (t : Fin cfg1.N) (q : Fin 128) :
    ((cfg1.win 3).blk t).view.emb (ix2 (0 : Fin 1) q) = ix2 (0 : Fin 1) q := by
  obtain ⟨-, -, -, -, -, -, e, e', -⟩ := idx_facts1 t
  funext a; apply Fin.ext
  match a with
  | ⟨0, _⟩ => show win1_3.index t (0 : Fin 2) * 1 + 1 * 0 = 0; omega
  | ⟨1, _⟩ => show win1_3.index t (1 : Fin 2) * 128 + 1 * q.val = q.val; omega

theorem emb1_4 (t : Fin cfg1.N) (q : Fin 128) :
    ((cfg1.win 4).blk t).view.emb (ix2 (0 : Fin 1) q) = ix2 (0 : Fin 1) q := by
  obtain ⟨-, -, -, -, -, -, -, -, e, e', -⟩ := idx_facts1 t
  funext a; apply Fin.ext
  match a with
  | ⟨0, _⟩ => show win1_4.index t (0 : Fin 2) * 1 + 1 * 0 = 0; omega
  | ⟨1, _⟩ => show win1_4.index t (1 : Fin 2) * 128 + 1 * q.val = q.val; omega

theorem emb1_5 (t : Fin cfg1.N) (q : Fin 128) :
    ((cfg1.win 5).blk t).view.emb (ix2 (0 : Fin 1) q) = ix2 (0 : Fin 1) q := by
  obtain ⟨-, -, -, -, -, -, -, -, -, -, e, e', -⟩ := idx_facts1 t
  funext a; apply Fin.ext
  match a with
  | ⟨0, _⟩ => show win1_5.index t (0 : Fin 2) * 1 + 1 * 0 = 0; omega
  | ⟨1, _⟩ => show win1_5.index t (1 : Fin 2) * 128 + 1 * q.val = q.val; omega

theorem emb1_6 (t : Fin cfg1.N) (q : Fin 128) :
    ((cfg1.win 6).blk t).view.emb (ix2 (0 : Fin 1) q) = ix2 (0 : Fin 1) q := by
  obtain ⟨-, -, -, -, -, -, -, -, -, -, -, -, e, e', -⟩ := idx_facts1 t
  funext a; apply Fin.ext
  match a with
  | ⟨0, _⟩ => show win1_6.index t (0 : Fin 2) * 1 + 1 * 0 = 0; omega
  | ⟨1, _⟩ => show win1_6.index t (1 : Fin 2) * 128 + 1 * q.val = q.val; omega

theorem emb1_7 (t : Fin cfg1.N) (j : Fin 128) (q : Fin 128) :
    ((cfg1.win 7).blk t).view.emb (ix2 j q) = ix2 j q := by
  obtain ⟨-, -, -, -, -, -, -, -, -, -, -, -, -, -, e, e', -⟩ := idx_facts1 t
  funext a; apply Fin.ext
  match a with
  | ⟨0, _⟩ => show win1_7.index t (0 : Fin 2) * 128 + 1 * j.val = j.val; omega
  | ⟨1, _⟩ => show win1_7.index t (1 : Fin 2) * 128 + 1 * q.val = q.val; omega

theorem emb1_8 (t : Fin cfg1.N) (p : Fin 4000) (q : Fin 128) :
    ((cfg1.win 8).blk t).view.emb (ix2 p q) = ix2 (row1 t p) q := by
  obtain ⟨-, -, -, -, -, -, -, -, -, -, -, -, -, -, -, -, e, e', -⟩ := idx_facts1 t
  funext a; apply Fin.ext
  match a with
  | ⟨0, _⟩ => show win1_8.index t (0 : Fin 2) * 4000 + 1 * p.val = t.val * 4000 + p.val; omega
  | ⟨1, _⟩ => show win1_8.index t (1 : Fin 2) * 128 + 1 * q.val = q.val; omega

theorem emb1_9 (t : Fin cfg1.N) (p : Fin 4000) (q : Fin 128) :
    ((cfg1.win 9).blk t).view.emb (ix2 p q) = ix2 (row1 t p) q := by
  obtain ⟨-, -, -, -, -, -, -, -, -, -, -, -, -, -, -, -, -, -, e, e'⟩ := idx_facts1 t
  funext a; apply Fin.ext
  match a with
  | ⟨0, _⟩ => show win1_9.index t (0 : Fin 2) * 4000 + 1 * p.val = t.val * 4000 + p.val; omega
  | ⟨1, _⟩ => show win1_9.index t (1 : Fin 2) * 128 + 1 * q.val = q.val; omega

/-! ## The two outputs as whole arrays -/

/-- Entry (r, k) of the first output: the entry of the scaled row, biased, normalised by the running statistics,
    scaled, shifted and rectified. -/
def out1xAt (A : S100000x128.Idx → EReal) (D : S100000x1.Idx → EReal) (B MU VA GA BE : S1x128.Idx → EReal)
    (r : Fin 100000) (k : Fin 128) : EReal :=
  Cert.GCN.bnrelu (A (ix2 r k) * D (ix2 r (0 : Fin 1))) (B (ix2 (0 : Fin 1) k)) (MU (ix2 (0 : Fin 1) k))
    (VA (ix2 (0 : Fin 1) k)) (GA (ix2 (0 : Fin 1) k)) (BE (ix2 (0 : Fin 1) k))

/-- Entry (r, k) of the second output: row r of the first output times column k of the weights, scaled by row r's
    factor. -/
def out1hAt (A : S100000x128.Idx → EReal) (D : S100000x1.Idx → EReal) (B MU VA GA BE : S1x128.Idx → EReal)
    (W : S128x128.Idx → EReal) (r : Fin 100000) (k : Fin 128) : EReal :=
  (∑ j : Fin 128, out1xAt A D B MU VA GA BE r j * W (ix2 j k)) * D (ix2 r (0 : Fin 1))

/-- The first output as one array of the arrays the region finds. -/
def out1xOf (c : Dev nD) : S100000x128.Idx → EReal := fun i =>
  out1xAt (Cert.GCN.arr S100000x128 (V c main_v27)) (Cert.GCN.arr S100000x1 (V c main_v15)) (Cert.GCN.arr S1x128 (V c main_v28))
    (Cert.GCN.arr S1x128 (V c main_v31)) (Cert.GCN.arr S1x128 (V c main_v32)) (Cert.GCN.arr S1x128 (V c main_v29))
    (Cert.GCN.arr S1x128 (V c main_v30)) ⟨(i 0).val, idx2_lt0 i⟩ ⟨(i 1).val, idx2_lt1 i⟩

/-- The second output as one array of the arrays the region finds. -/
def out1hOf (c : Dev nD) : S100000x128.Idx → EReal := fun i =>
  out1hAt (Cert.GCN.arr S100000x128 (V c main_v27)) (Cert.GCN.arr S100000x1 (V c main_v15)) (Cert.GCN.arr S1x128 (V c main_v28))
    (Cert.GCN.arr S1x128 (V c main_v31)) (Cert.GCN.arr S1x128 (V c main_v32)) (Cert.GCN.arr S1x128 (V c main_v29))
    (Cert.GCN.arr S1x128 (V c main_v30)) (Cert.GCN.arr S128x128 (V c main_arg8)) ⟨(i 0).val, idx2_lt0 i⟩ ⟨(i 1).val, idx2_lt1 i⟩

/-- What point t writes back into the first output is block t of that array. -/
theorem flushed1_8_eq (c : Dev nD) (t : Fin cfg1.N) :
    (dat1 V c).flushed 8 t = ((cfg1.win 8).blk t).view.read (Elt Ideal) (out1xOf V c) := by
  show (cfg1.win 8).cut (grid1.coords t) ((dat1 V c).after 8 t) = _
  rw [after1_8]
  unfold out1_8
  rw [View.canon_unit_zero hz1]
  simp only [View.ld_unit_zero (S := S4000x128) hz1, View.ld_unit_zero (S := S4000x1) hz1, View.ld_unit_zero (S := S1x128) hz1]
  refine funext fun (j : S4000x128.Idx) => ?_
  obtain ⟨p, q, rfl⟩ : ∃ (p : Fin 4000) (q : Fin 128), j = ix2 p q := ⟨j 0, j 1, eq_ix2 j⟩
  refine (pay1x_apply (iblk1 V c 0 t) (iblk1 V c 1 t) (iblk1 V c 2 t) (iblk1 V c 5 t) (iblk1 V c 6 t) (iblk1 V c 3 t) (iblk1 V c 4 t) p q).trans ?_
  show Cert.GCN.bnrelu
      (Cert.GCN.arr S100000x128 (V c main_v27) (((cfg1.win 0).blk t).view.emb (ix2 p q))
        * Cert.GCN.arr S100000x1 (V c main_v15) (((cfg1.win 1).blk t).view.emb (ix2 p (0 : Fin 1))))
      (Cert.GCN.arr S1x128 (V c main_v28) (((cfg1.win 2).blk t).view.emb (ix2 (0 : Fin 1) q)))
      (Cert.GCN.arr S1x128 (V c main_v31) (((cfg1.win 5).blk t).view.emb (ix2 (0 : Fin 1) q)))
      (Cert.GCN.arr S1x128 (V c main_v32) (((cfg1.win 6).blk t).view.emb (ix2 (0 : Fin 1) q)))
      (Cert.GCN.arr S1x128 (V c main_v29) (((cfg1.win 3).blk t).view.emb (ix2 (0 : Fin 1) q)))
      (Cert.GCN.arr S1x128 (V c main_v30) (((cfg1.win 4).blk t).view.emb (ix2 (0 : Fin 1) q)))
    = out1xOf V c (((cfg1.win 8).blk t).view.emb (ix2 p q))
  rw [emb1_0, emb1_1, emb1_2, emb1_3, emb1_4, emb1_5, emb1_6, emb1_8]
  rfl

/-- An index of the array is in point t's block of the first output iff each coordinate is in the block's range. -/
theorem mem_blk1_8 (t : Fin cfg1.N) (i : S100000x128.Idx) :
    i ∈ ((cfg1.win 8).blk t).view.set ↔ ∀ a : Fin 2, win1_8.index t a * S4000x128.size a ≤ (i a).val ∧ (i a).val < win1_8.index t a * S4000x128.size a + S4000x128.size a := by
  show i ∈ ((View.whole main_v33_0).slice (win1_8.rect t)).set ↔ _
  rw [View.set_slice_whole, Rect.mem_set_unit]
  exact Iff.rfl

/-- Row r of the first output is in the block of point r / 4000. -/
theorem covered1_8 (i : S100000x128.Idx) :
    ∃ t : Fin cfg1.N, (cfg1.win 8).flush t = true ∧ i ∈ ((cfg1.win 8).blk t).view.set := by
  have hi0 : (i 0).val < 100000 := idx2_lt0 i
  have hi1 : (i 1).val < 128 := idx2_lt1 i
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, -, -, -, -, -, -, e, e', -⟩ := idx_facts1 t
  refine ⟨t, flush1_8 t, ?_⟩
  rw [mem_blk1_8]
  intro a
  match a with
  | ⟨0, _⟩ => show win1_8.index t (0 : Fin 2) * 4000 ≤ (i 0).val ∧ (i 0).val < win1_8.index t (0 : Fin 2) * 4000 + 4000; omega
  | ⟨1, _⟩ => show win1_8.index t (1 : Fin 2) * 128 ≤ (i 1).val ∧ (i 1).val < win1_8.index t (1 : Fin 2) * 128 + 128; omega

/-- The first output after all 25 points. -/
theorem final1_8 (c : Dev nD) : (dat1 V c).arrAt 8 cfg1.N = out1xOf V c :=
  (dat1 V c).arrAt_eq_of_cover 8 (out1xOf V c) (fun t _ => flushed1_8_eq V c t) covered1_8

theorem region1_x1 (c : Dev nD) (r : Fin 100000) (k : Fin 128) :
    Cert.GCN.arr S100000x128 ((dat1 V c).arrAt 8 cfg1.N) (ix2 r k)
      = Cert.GCN.bnrelu (Cert.GCN.arr S100000x128 (V c main_v27) (ix2 r k) * Cert.GCN.arr S100000x1 (V c main_v15) (ix2 r (0 : Fin 1)))
          (Cert.GCN.arr S1x128 (V c main_v28) (ix2 (0 : Fin 1) k)) (Cert.GCN.arr S1x128 (V c main_v31) (ix2 (0 : Fin 1) k))
          (Cert.GCN.arr S1x128 (V c main_v32) (ix2 (0 : Fin 1) k)) (Cert.GCN.arr S1x128 (V c main_v29) (ix2 (0 : Fin 1) k))
          (Cert.GCN.arr S1x128 (V c main_v30) (ix2 (0 : Fin 1) k)) :=
  congrFun (final1_8 V c) (ix2 r k)

/-- What point t writes back into the second output is block t of that array. -/
theorem flushed1_9_eq (c : Dev nD) (t : Fin cfg1.N) :
    (dat1 V c).flushed 9 t = ((cfg1.win 9).blk t).view.read (Elt Ideal) (out1hOf V c) := by
  show (cfg1.win 9).cut (grid1.coords t) ((dat1 V c).after 9 t) = _
  rw [after1_9]
  unfold out1_9
  rw [View.canon_unit_zero hz1]
  simp only [View.ld_unit_zero (S := S4000x128) hz1, View.ld_unit_zero (S := S4000x1) hz1, View.ld_unit_zero (S := S1x128) hz1,
    View.ld_unit_zero (S := S128x128) hz1]
  refine funext fun (j : S4000x128.Idx) => ?_
  obtain ⟨p, q, rfl⟩ : ∃ (p : Fin 4000) (q : Fin 128), j = ix2 p q := ⟨j 0, j 1, eq_ix2 j⟩
  refine (pay1h_apply (iblk1 V c 0 t) (iblk1 V c 1 t) (iblk1 V c 2 t) (iblk1 V c 5 t) (iblk1 V c 6 t) (iblk1 V c 3 t) (iblk1 V c 4 t)
    (iblk1 V c 7 t) (iblk1 V c 1 t) p q).trans ?_
  show (∑ j : Fin 128, Cert.GCN.bnrelu
      (Cert.GCN.arr S100000x128 (V c main_v27) (((cfg1.win 0).blk t).view.emb (ix2 p j))
        * Cert.GCN.arr S100000x1 (V c main_v15) (((cfg1.win 1).blk t).view.emb (ix2 p (0 : Fin 1))))
      (Cert.GCN.arr S1x128 (V c main_v28) (((cfg1.win 2).blk t).view.emb (ix2 (0 : Fin 1) j)))
      (Cert.GCN.arr S1x128 (V c main_v31) (((cfg1.win 5).blk t).view.emb (ix2 (0 : Fin 1) j)))
      (Cert.GCN.arr S1x128 (V c main_v32) (((cfg1.win 6).blk t).view.emb (ix2 (0 : Fin 1) j)))
      (Cert.GCN.arr S1x128 (V c main_v29) (((cfg1.win 3).blk t).view.emb (ix2 (0 : Fin 1) j)))
      (Cert.GCN.arr S1x128 (V c main_v30) (((cfg1.win 4).blk t).view.emb (ix2 (0 : Fin 1) j)))
        * Cert.GCN.arr S128x128 (V c main_arg8) (((cfg1.win 7).blk t).view.emb (ix2 j q)))
      * Cert.GCN.arr S100000x1 (V c main_v15) (((cfg1.win 1).blk t).view.emb (ix2 p (0 : Fin 1)))
    = out1hOf V c (((cfg1.win 9).blk t).view.emb (ix2 p q))
  rw [emb1_1, emb1_9]
  refine congrArg (· * _) (Finset.sum_congr rfl fun j _ => ?_)
  rw [emb1_0, emb1_2, emb1_3, emb1_4, emb1_5, emb1_6, emb1_7]
  rfl

/-- An index of the array is in point t's block of the second output iff each coordinate is in the block's range. -/
theorem mem_blk1_9 (t : Fin cfg1.N) (i : S100000x128.Idx) :
    i ∈ ((cfg1.win 9).blk t).view.set ↔ ∀ a : Fin 2, win1_9.index t a * S4000x128.size a ≤ (i a).val ∧ (i a).val < win1_9.index t a * S4000x128.size a + S4000x128.size a := by
  show i ∈ ((View.whole main_v33_1).slice (win1_9.rect t)).set ↔ _
  rw [View.set_slice_whole, Rect.mem_set_unit]
  exact Iff.rfl

/-- Row r of the second output is in the block of point r / 4000. -/
theorem covered1_9 (i : S100000x128.Idx) :
    ∃ t : Fin cfg1.N, (cfg1.win 9).flush t = true ∧ i ∈ ((cfg1.win 9).blk t).view.set := by
  have hi0 : (i 0).val < 100000 := idx2_lt0 i
  have hi1 : (i 1).val < 128 := idx2_lt1 i
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, -, -, -, -, -, -, -, -, e, e'⟩ := idx_facts1 t
  refine ⟨t, flush1_9 t, ?_⟩
  rw [mem_blk1_9]
  intro a
  match a with
  | ⟨0, _⟩ => show win1_9.index t (0 : Fin 2) * 4000 ≤ (i 0).val ∧ (i 0).val < win1_9.index t (0 : Fin 2) * 4000 + 4000; omega
  | ⟨1, _⟩ => show win1_9.index t (1 : Fin 2) * 128 ≤ (i 1).val ∧ (i 1).val < win1_9.index t (1 : Fin 2) * 128 + 128; omega

/-- The second output after all 25 points. -/
theorem final1_9 (c : Dev nD) : (dat1 V c).arrAt 9 cfg1.N = out1hOf V c :=
  (dat1 V c).arrAt_eq_of_cover 9 (out1hOf V c) (fun t _ => flushed1_9_eq V c t) covered1_9

theorem region1_hs (c : Dev nD) (r : Fin 100000) (k : Fin 128) :
    Cert.GCN.arr S100000x128 ((dat1 V c).arrAt 9 cfg1.N) (ix2 r k)
      = (∑ j : Fin 128, Cert.GCN.bnrelu (Cert.GCN.arr S100000x128 (V c main_v27) (ix2 r j) * Cert.GCN.arr S100000x1 (V c main_v15) (ix2 r (0 : Fin 1)))
          (Cert.GCN.arr S1x128 (V c main_v28) (ix2 (0 : Fin 1) j)) (Cert.GCN.arr S1x128 (V c main_v31) (ix2 (0 : Fin 1) j))
          (Cert.GCN.arr S1x128 (V c main_v32) (ix2 (0 : Fin 1) j)) (Cert.GCN.arr S1x128 (V c main_v29) (ix2 (0 : Fin 1) j))
          (Cert.GCN.arr S1x128 (V c main_v30) (ix2 (0 : Fin 1) j)) * Cert.GCN.arr S128x128 (V c main_arg8) (ix2 j k))
          * Cert.GCN.arr S100000x1 (V c main_v15) (ix2 r (0 : Fin 1)) :=
  congrFun (final1_9 V c) (ix2 r k)

end Cert.KernelIdeal.Hand

end
-- ==== Proof.Region2.lean ====
/-
  The last region: the jumping-knowledge maximum of the two layers, the final linear map and its bias.

  The region walks the 100000 rows in 25 blocks of 4000. At block t it holds rows 4000 t … 4000 t + 3999 of the first
  layer's output, of the second layer's received sums and of the factor column, and the whole of the second bias row,
  of the 128 × 40 final weights and of the final bias row, and writes the same rows of the [100000, 40] output. Entry
  (p, o) of what it writes is the sum over the 128 features k of max (first (p, k), received (p, k) · factor (p) +
  bias2 (k)) times weight (k, o), plus biasF (o); at the extended reals the changes of float format are the identity
  and a product accumulated from zero is the plain sum. Every entry of a block therefore is the entry of ONE function
  of the six whole arrays at the block's place in the output, and the 25 blocks tile the output, so after the region
  entry (r, o) of the output is that expression at row r.
-/
import proofs.«160650_j4501125726319_2_alg».proof.Proof.Gen.KernelIdeal.Frame
import proofs.«160650_j4501125726319_2_alg».proof.Proof.Spec
import proofs.«160650_j4501125726319_2_alg».proof.Proof.LibDotRows
import proofs.«160650_j4501125726319_2_alg».proof.Proof.LibColumns
import proofs.«160650_j4501125726319_2_alg».proof.Proof.LibRowBroadcast
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- A product of a [4000,128] block with a [128,40] block accumulated from zero, read at (p, q): the sum over the 128
    contraction positions of the left block's row p against the right block's column q. -/
theorem dot2_apply (l : FVec Ideal S4000x128 .bf16) (r : FVec Ideal S128x40 .bf16) (p : Fin 4000) (q : Fin 40) :
    FloatOps.matmul (F := Ideal) dot_S4000x128_S128x40_S4000x40_1_0_0_1_n_n none l r (constant S4000x40 .f32 0x00000000#32) (ix2 p q)
      = ∑ k : Fin 128, l (ix2 p k) * r (ix2 k q) := by
  rw [Ideal.matmul_constant_zero_apply]
  dot_rows dot_S4000x128_S128x40_S4000x40_1_0_0_1_n_n S4000x128 S128x40 128

/-- Entry (p, o) of the body's payload: row p of the jumping-knowledge maximum — the larger of the first layer's entry and
    the second layer's received sum times the row's factor plus the bias — against column o of the final weights, summed
    over the 128 features, plus the final bias. -/
theorem pay2_apply (v0 : Vec Ideal S4000x128 .f32) (v2 : Vec Ideal S4000x1 .f32) (v6 : Vec Ideal S1x128 .f32)
    (v10 : Vec Ideal S4000x128 .f32) (v14 : Vec Ideal S128x40 .f32) (v17 : Vec Ideal S1x40 .f32)
    (p : Fin 4000) (o : Fin 40) :
    (k2_pay1 (F := Ideal) v0 v2 v6 v10 v14 v17 (ix2 p o) : EReal)
      = (∑ k : Fin 128, max (v10 (ix2 p k) : EReal)
            ((v0 (ix2 p k) : EReal) * (v2 (ix2 p (0 : Fin 1)) : EReal) + (v6 (ix2 (0 : Fin 1) k) : EReal))
          * (v14 (ix2 k o) : EReal))
        + (v17 (ix2 (0 : Fin 1) o) : EReal) := by
  unfold k2_pay1
  simp only [shapeCast_self]
  show (FloatOps.matmul (F := Ideal) dot_S4000x128_S128x40_S4000x40_1_0_0_1_n_n none
        (truncf .bf16 (maximumf v10 (addf (mulf v0 (broadcastTo S4000x128 v2 broadcasts_S4000x1_S4000x128)) (broadcastTo S4000x128 v6 broadcasts_S1x128_S4000x128))) bitsLt_bf16_f32)
        (truncf .bf16 v14 bitsLt_bf16_f32) (constant S4000x40 .f32 0x00000000#32) (ix2 p o) : EReal)
      + (broadcastTo S4000x40 v17 broadcasts_S1x40_S4000x40 (ix2 p o) : EReal) = _
  refine congrArg₂ (· + ·) ((dot2_apply _ _ p o).trans (Finset.sum_congr rfl fun k _ => ?_))
    (Cert.RowBroadcast.broadcastTo_1b_ab_apply _ _ p o)
  show max (v10 (ix2 p k) : EReal)
      ((v0 (ix2 p k) : EReal) * (broadcastTo S4000x128 v2 broadcasts_S4000x1_S4000x128 (ix2 p k) : EReal)
        + (broadcastTo S4000x128 v6 broadcasts_S1x128_S4000x128 (ix2 p k) : EReal)) * (v14 (ix2 k o) : EReal) = _
  rw [Cert.Columns.broadcastTo_a1_ab_apply, Cert.RowBroadcast.broadcastTo_1b_ab_apply]

/-! ## From the blocks to the array -/

/-- Entry (r, o) of the final linear map of the jumping-knowledge maximum, as a function of the six whole arrays:
    a0 the first layer's output, a1 the second layer's received sums, a2 the factor column, a3 the second bias,
    a4 the final weights, a5 the final bias. -/
def rows2 (a0 : S100000x128.Idx → EReal) (a1 : S100000x128.Idx → EReal) (a2 : S100000x1.Idx → EReal)
    (a3 : S1x128.Idx → EReal) (a4 : S128x40.Idx → EReal) (a5 : S1x40.Idx → EReal)
    (r : Fin 100000) (o : Fin 40) : EReal :=
  (∑ k : Fin 128, max (a0 (ix2 r k)) (a1 (ix2 r k) * a2 (ix2 r (0 : Fin 1)) + a3 (ix2 (0 : Fin 1) k)) * a4 (ix2 k o))
    + a5 (ix2 (0 : Fin 1) o)

/-- The same as an array over the output's index type. -/
def G2 (a0 : S100000x128.Idx → EReal) (a1 : S100000x128.Idx → EReal) (a2 : S100000x1.Idx → EReal)
    (a3 : S1x128.Idx → EReal) (a4 : S128x40.Idx → EReal) (a5 : S1x40.Idx → EReal) :
    S100000x40.Idx → EReal := fun i => rows2 a0 a1 a2 a3 a4 a5 (i 0) (i 1)

theorem zero_offsets2 : (![0, 0] : Fin 2 → Nat) = fun _ => 0 := funext fun a => by fin_cases a <;> rfl

/-- The block indices over the grid: at point t the two [100000,128] operands, the factor column and the output sit at
    block row t, block column 0; the bias rows and the final weights are always block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of the first layer's block at point t is row 4000 t + p of the array. -/
theorem blk2_0 (c : Dev nD) (t : Fin cfg2.N) (p : Fin 4000) (j : Fin 128) (r : Fin 100000)
    (hr : r.val = 4000 * t.val + p.val) :
    ((iblk2 V c 0 t : Vec Ideal S4000x128 .f32) (ix2 p j) : EReal) = (V c main_v33_0 : S100000x128.Idx → EReal) (ix2 r j) := by
  have e0 := (idx_facts2 t).1
  have e1 := (idx_facts2 t).2.1
  unfold iblk2
  rw [View.read_apply]
  show (V c main_v33_0 : S100000x128.Idx → EReal) _ = (V c main_v33_0 : S100000x128.Idx → EReal) _
  congr 1
  funext a
  apply Fin.ext
  match a with
  | ⟨0, _⟩ => show win2_0.index t (0 : Fin 2) * 4000 + 1 * p.val = r.val; rw [e0, hr]; omega
  | ⟨1, _⟩ => show win2_0.index t (1 : Fin 2) * 128 + 1 * j.val = j.val; rw [e1]; omega

/-- Row p of the received sums' block at point t is row 4000 t + p of the array. -/
theorem blk2_1 (c : Dev nD) (t : Fin cfg2.N) (p : Fin 4000) (j : Fin 128) (r : Fin 100000)
    (hr : r.val = 4000 * t.val + p.val) :
    ((iblk2 V c 1 t : Vec Ideal S4000x128 .f32) (ix2 p j) : EReal) = (V c main_v44 : S100000x128.Idx → EReal) (ix2 r j) := by
  have e0 := (idx_facts2 t).2.2.1
  have e1 := (idx_facts2 t).2.2.2.1
  unfold iblk2
  rw [View.read_apply]
  show (V c main_v44 : S100000x128.Idx → EReal) _ = (V c main_v44 : S100000x128.Idx → EReal) _
  congr 1
  funext a
  apply Fin.ext
  match a with
  | ⟨0, _⟩ => show win2_1.index t (0 : Fin 2) * 4000 + 1 * p.val = r.val; rw [e0, hr]; omega
  | ⟨1, _⟩ => show win2_1.index t (1 : Fin 2) * 128 + 1 * j.val = j.val; rw [e1]; omega

/-- Row p of the factor column's block at point t is row 4000 t + p of the column. -/
theorem blk2_2 (c : Dev nD) (t : Fin cfg2.N) (p : Fin 4000) (r : Fin 100000)
    (hr : r.val = 4000 * t.val + p.val) :
    ((iblk2 V c 2 t : Vec Ideal S4000x1 .f32) (ix2 p (0 : Fin 1)) : EReal) = (V c main_v15 : S100000x1.Idx → EReal) (ix2 r (0 : Fin 1)) := by
  have e0 := (idx_facts2 t).2.2.2.2.1
  have e1 := (idx_facts2 t).2.2.2.2.2.1
  unfold iblk2
  rw [View.read_apply]
  show (V c main_v15 : S100000x1.Idx → EReal) _ = (V c main_v15 : S100000x1.Idx → EReal) _
  congr 1
  funext a
  apply Fin.ext
  match a with
  | ⟨0, _⟩ => show win2_2.index t (0 : Fin 2) * 4000 + 1 * p.val = r.val; rw [e0, hr]; omega
  | ⟨1, _⟩ => show win2_2.index t (1 : Fin 2) * 1 + 1 * 0 = 0; rw [e1]

/-- The second bias's block at every point is the whole bias row. -/
theorem blk2_3 (c : Dev nD) (t : Fin cfg2.N) (a0 : Fin 1) (a1 : Fin 128) :
    ((iblk2 V c 3 t : Vec Ideal S1x128 .f32) (ix2 a0 a1) : EReal) = (V c main_v45 : S1x128.Idx → EReal) (ix2 a0 a1) := by
  have e0 := (idx_facts2 t).2.2.2.2.2.2.1
  have e1 := (idx_facts2 t).2.2.2.2.2.2.2.1
  unfold iblk2
  rw [View.read_apply]
  show (V c main_v45 : S1x128.Idx → EReal) _ = (V c main_v45 : S1x128.Idx → EReal) _
  congr 1
  funext a
  apply Fin.ext
  match a with
  | ⟨0, _⟩ => show win2_3.index t (0 : Fin 2) * 1 + 1 * a0.val = a0.val; rw [e0]; omega
  | ⟨1, _⟩ => show win2_3.index t (1 : Fin 2) * 128 + 1 * a1.val = a1.val; rw [e1]; omega

/-- The final weights' block at every point is the whole weight array. -/
theorem blk2_4 (c : Dev nD) (t : Fin cfg2.N) (a0 : Fin 128) (a1 : Fin 40) :
    ((iblk2 V c 4 t : Vec Ideal S128x40 .f32) (ix2 a0 a1) : EReal) = (V c main_arg10 : S128x40.Idx → EReal) (ix2 a0 a1) := by
  have e0 := (idx_facts2 t).2.2.2.2.2.2.2.2.1
  have e1 := (idx_facts2 t).2.2.2.2.2.2.2.2.2.1
  unfold iblk2
  rw [View.read_apply]
  show (V c main_arg10 : S128x40.Idx → EReal) _ = (V c main_arg10 : S128x40.Idx → EReal) _
  congr 1
  funext a
  apply Fin.ext
  match a with
  | ⟨0, _⟩ => show win2_4.index t (0 : Fin 2) * 128 + 1 * a0.val = a0.val; rw [e0]; omega
  | ⟨1, _⟩ => show win2_4.index t (1 : Fin 2) * 40 + 1 * a1.val = a1.val; rw [e1]; omega

/-- The final bias's block at every point is the whole bias row. -/
theorem blk2_5 (c : Dev nD) (t : Fin cfg2.N) (a0 : Fin 1) (a1 : Fin 40) :
    ((iblk2 V c 5 t : Vec Ideal S1x40 .f32) (ix2 a0 a1) : EReal) = (V c main_v46 : S1x40.Idx → EReal) (ix2 a0 a1) := by
  have e0 := (idx_facts2 t).2.2.2.2.2.2.2.2.2.2.1
  have e1 := (idx_facts2 t).2.2.2.2.2.2.2.2.2.2.2.1
  unfold iblk2
  rw [View.read_apply]
  show (V c main_v46 : S1x40.Idx → EReal) _ = (V c main_v46 : S1x40.Idx → EReal) _
  congr 1
  funext a
  apply Fin.ext
  match a with
  | ⟨0, _⟩ => show win2_5.index t (0 : Fin 2) * 1 + 1 * a0.val = a0.val; rw [e0]; omega
  | ⟨1, _⟩ => show win2_5.index t (1 : Fin 2) * 40 + 1 * a1.val = a1.val; rw [e1]; omega

/-- What point t writes back is block t of the one whole-array function. -/
theorem flushed2_eq (c : Dev nD) (t : Fin cfg2.N) :
    (dat2 V c).flushed 6 t = ((cfg2.win 6).blk t).view.read (Elt Ideal)
      (G2 (V c main_v33_0) (V c main_v44) (V c main_v15) (V c main_v45) (V c main_arg10) (V c main_v46)) := by
  show (cfg2.win 6).cut (grid2.coords t) ((dat2 V c).after 6 t) = _
  rw [after2_6]
  unfold out2_6
  rw [View.canon_unit_zero zero_offsets2]
  simp only [View.ld_unit_zero (S := S4000x128) zero_offsets2, View.ld_unit_zero (S := S4000x1) zero_offsets2,
    View.ld_unit_zero (S := S1x128) zero_offsets2, View.ld_unit_zero (S := S128x40) zero_offsets2,
    View.ld_unit_zero (S := S1x40) zero_offsets2]
  funext y
  obtain ⟨p, o, rfl⟩ : ∃ (p : Fin 4000) (o : Fin 40), y = ix2 p o := ⟨y 0, y 1, eq_ix2 y⟩
  show (k2_pay1 (F := Ideal) (iblk2 V c 1 t) (iblk2 V c 2 t) (iblk2 V c 3 t) (iblk2 V c 0 t) (iblk2 V c 4 t) (iblk2 V c 5 t) (ix2 p o) : EReal)
      = G2 (V c main_v33_0) (V c main_v44) (V c main_v15) (V c main_v45) (V c main_arg10) (V c main_v46)
          (((cfg2.win 6).blk t).view.emb (ix2 p o))
  have ht : t.val < 25 := lt_of_lt_of_eq t.isLt N_2
  have e0 := (idx_facts2 t).2.2.2.2.2.2.2.2.2.2.2.2.1
  have e1 := (idx_facts2 t).2.2.2.2.2.2.2.2.2.2.2.2.2
  obtain ⟨r, hr⟩ : ∃ r : Fin 100000, r.val = 4000 * t.val + p.val := ⟨⟨4000 * t.val + p.val, by have := p.isLt; omega⟩, rfl⟩
  have hemb : ((cfg2.win 6).blk t).view.emb (ix2 p o) = (ix2 r o : S100000x40.Idx) := by
    funext a
    apply Fin.ext
    match a with
    | ⟨0, _⟩ => show win2_6.index t (0 : Fin 2) * 4000 + 1 * p.val = r.val; rw [e0, hr]; omega
    | ⟨1, _⟩ => show win2_6.index t (1 : Fin 2) * 40 + 1 * o.val = o.val; rw [e1]; omega
  rw [hemb]
  refine (pay2_apply (iblk2 V c 1 t) (iblk2 V c 2 t) (iblk2 V c 3 t) (iblk2 V c 0 t) (iblk2 V c 4 t) (iblk2 V c 5 t) p o).trans ?_
  show _ = rows2 (V c main_v33_0) (V c main_v44) (V c main_v15) (V c main_v45) (V c main_arg10) (V c main_v46) r o
  unfold rows2
  rw [blk2_5 V c t (0 : Fin 1) o, blk2_2 V c t p r hr]
  refine congrArg (· + _) (Finset.sum_congr rfl fun k _ => ?_)
  rw [blk2_0 V c t p k r hr, blk2_1 V c t p k r hr, blk2_3 V c t (0 : Fin 1) k, blk2_4 V c t k o]

/-- An index of the output array is in point t's block exactly when each coordinate is in the block's range. -/
theorem mem_blk2 (t : Fin cfg2.N) (i : S100000x40.Idx) :
    i ∈ ((cfg2.win 6).blk t).view.set ↔ ∀ a : Fin 2, win2_6.index t a * S4000x40.size a ≤ (i a).val ∧ (i a).val < win2_6.index t a * S4000x40.size a + S4000x40.size a := by
  show i ∈ ((View.whole main_v47).slice (win2_6.rect t)).set ↔ _
  rw [View.set_slice_whole, Rect.mem_set_unit]
  exact Iff.rfl

/-- Row r of the output lies in the block of point r / 4000: the 25 blocks of 4000 rows tile the 100000 rows. -/
theorem cover2 (i : S100000x40.Idx) :
    ∃ t : Fin cfg2.N, (cfg2.win 6).flush t = true ∧ i ∈ ((cfg2.win 6).blk t).view.set := by
  have hi0 : (i 0).val < 100000 := (i 0).isLt
  have hi1 : (i 1).val < 40 := (i 1).isLt
  have hN : cfg2.N = 25 := N_2
  let t : Fin cfg2.N := ⟨(i 0).val / 4000, by rw [hN]; omega⟩
  have e0 : win2_6.index t (0 : Fin 2) = (i 0).val / 4000 := (idx_facts2 t).2.2.2.2.2.2.2.2.2.2.2.2.1
  have e1 := (idx_facts2 t).2.2.2.2.2.2.2.2.2.2.2.2.2
  refine ⟨t, flush2_6 t, ?_⟩
  rw [mem_blk2]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 40 ≤ (i 1).val ∧ (i 1).val < win2_6.index t (1 : Fin 2) * 40 + 40; omega

/-- The output array after the region: entry (r, o) is row r of the jumping-knowledge maximum against column o of the
    final weights, plus the final bias. -/
theorem region2_out (c : Dev nD) (r : Fin 100000) (o : Fin 40) :
    Cert.GCN.arr S100000x40 ((dat2 V c).arrAt 6 cfg2.N) (ix2 r o)
      = (∑ k : Fin 128, max (Cert.GCN.arr S100000x128 (V c main_v33_0) (ix2 r k))
            (Cert.GCN.arr S100000x128 (V c main_v44) (ix2 r k) * Cert.GCN.arr S100000x1 (V c main_v15) (ix2 r (0 : Fin 1))
              + Cert.GCN.arr S1x128 (V c main_v45) (ix2 (0 : Fin 1) k))
          * Cert.GCN.arr S128x40 (V c main_arg10) (ix2 k o))
        + Cert.GCN.arr S1x40 (V c main_v46) (ix2 (0 : Fin 1) o) := by
  have h := (dat2 V c).arrAt_eq_of_cover 6
    (G2 (V c main_v33_0) (V c main_v44) (V c main_v15) (V c main_v45) (V c main_arg10) (V c main_v46))
    (fun t _ => flushed2_eq V c t) cover2
  unfold Cert.GCN.arr
  rw [h]
  rfl

end Cert.KernelIdeal.Hand

end
-- ==== Proof.KernelValue.lean ====
/-
  The idealized kernel's result, entry by entry.

  The third region's output array is, at (r, o), a sum over the 128 hidden features of the larger of layer one's
  entry and layer two's entry, times the final weight, plus the final bias. Layer one's entry was written by the
  second region from what the first host stretch delivered; what that stretch delivered are rows of the first
  region's output, the dense transform of the features with each row scaled by its node's factor. Layer two's
  entry is read by the third region from what the second host stretch delivered: rows of the second region's other
  output, the dense transform of layer one, scaled the same way. Every bias and batch-normalisation row is a
  reshaped argument vector, and the column of factors is the same column in all three regions. Put together, the
  result is the first arrangement of the specification, at the edge words, factors and argument arrays of the
  launch memory.
-/
import proofs.«160650_j4501125726319_2_alg».proof.Proof.KernelFolds
import proofs.«160650_j4501125726319_2_alg».proof.Proof.KernelRows
import proofs.«160650_j4501125726319_2_alg».proof.Proof.KernelHost
import proofs.«160650_j4501125726319_2_alg».proof.Proof.Region0
import proofs.«160650_j4501125726319_2_alg».proof.Proof.Region1
import proofs.«160650_j4501125726319_2_alg».proof.Proof.Region2

set_option maxRecDepth 16384

noncomputable section

namespace Cert.KernelIdeal.ValueK

open Cert.KernelIdeal Cert.KernelIdeal.Gen Idealize.ShloMosaic Idealize.ShloMosaic.TcCoe Idealize.ShloMosaic.ValueIdx Idealize.SL.Sem
open Cert.GCN Cert.KernelIdeal.Folds Cert.KernelIdeal.Rows Cert.KernelIdeal.HostStretch
open scoped BigOperators

variable (m : (ℓ : Loc nD τ sig) → Buf (Elt Ideal) ℓ) (ρ : Dev nD → PrngReg) (c : Dev nD)

/-- The normalisation factor of node r, as each region reads it off its column window. -/
theorem col3 (r : Fin 100000) : arr S100000x1 (V3 m ρ c main_v15) (ix2 r (0 : Fin 1))
    = arr Cert.ReferenceIdeal.S100000 (Cert.ReferenceIdeal.ReadP.val_main_v14 (F := Ideal) (m ((c : Thread nD τ).loc main_arg1))) (ix1 r) :=
  col_entry m ρ c r
theorem col5 (r : Fin 100000) : arr S100000x1 (V5 m ρ c main_v15) (ix2 r (0 : Fin 1))
    = arr Cert.ReferenceIdeal.S100000 (Cert.ReferenceIdeal.ReadP.val_main_v14 (F := Ideal) (m ((c : Thread nD τ).loc main_arg1))) (ix1 r) := by
  show arr S100000x1 (W5 m ρ c (Proc.devRef .tc main_v15)) (ix2 r (0 : Fin 1)) = _
  rw [W5_v15]; exact col_entry m ρ c r
theorem col7 (r : Fin 100000) : arr S100000x1 (V7 m ρ c main_v15) (ix2 r (0 : Fin 1))
    = arr Cert.ReferenceIdeal.S100000 (Cert.ReferenceIdeal.ReadP.val_main_v14 (F := Ideal) (m ((c : Thread nD τ).loc main_arg1))) (ix1 r) := by
  show arr S100000x1 (W7 m ρ c (Proc.devRef .tc main_v15)) (ix2 r (0 : Fin 1)) = _
  rw [W7_v15]; exact col_entry m ρ c r

/-- The first region's output: each row of the dense transform of the features, scaled by its node's factor. -/
theorem hs1_entry (i : Fin 100000) (j : Fin 128) :
    arr S100000x128 (W4 m ρ c (Proc.devRef .tc main_v16)) (ix2 i j)
      = linS (fun i => arr Cert.ReferenceIdeal.S100000 (Cert.ReferenceIdeal.ReadP.val_main_v14 (F := Ideal) (m ((c : Thread nD τ).loc main_arg1))) (ix1 i))
          (fun i j => arr S100000x128 (m ((c : Thread nD τ).loc main_arg0)) (ix2 i j))
          (fun j k => arr S128x128 (m ((c : Thread nD τ).loc main_arg2)) (ix2 j k)) i j := by
  rw [show W4 m ρ c (Proc.devRef .tc main_v16) = (dat0 (V3 m ρ) c).arrAt 3 cfg0.N from W4_arr m ρ c 3]
  rw [Cert.KernelIdeal.Hand.region0_out (V3 m ρ) c i j, col3 m ρ c i]
  unfold linS lin
  rw [show V3 m ρ c main_arg0 = m ((c : Thread nD τ).loc main_arg0) from W3_arg0 m ρ c,
    show V3 m ρ c main_arg2 = m ((c : Thread nD τ).loc main_arg2) from W3_arg2 m ρ c]

/-- The second region's first output is layer one of the first arrangement. -/
theorem x1_formula (i : Fin 100000) (j : Fin 128) :
    bnrelu (arr S100000x128 (V5 m ρ c main_v27) (ix2 i j) * arr S100000x1 (V5 m ρ c main_v15) (ix2 i (0 : Fin 1)))
        (arr S1x128 (V5 m ρ c main_v28) (ix2 (0 : Fin 1) j)) (arr S1x128 (V5 m ρ c main_v31) (ix2 (0 : Fin 1) j))
        (arr S1x128 (V5 m ρ c main_v32) (ix2 (0 : Fin 1) j)) (arr S1x128 (V5 m ρ c main_v29) (ix2 (0 : Fin 1) j))
        (arr S1x128 (V5 m ρ c main_v30) (ix2 (0 : Fin 1) j))
      = x1K (tgt (Cert.ReferenceIdeal.ReadP.val_main_v6 (F := Ideal) (m ((c : Thread nD τ).loc main_arg1)))) (node (Cert.ReferenceIdeal.ReadP.val_main_v5 (F := Ideal) (m ((c : Thread nD τ).loc main_arg1))))
      (fun i => arr Cert.ReferenceIdeal.S100000 (Cert.ReferenceIdeal.ReadP.val_main_v14 (F := Ideal) (m ((c : Thread nD τ).loc main_arg1))) (ix1 i))
      (fun i j => arr S100000x128 (m ((c : Thread nD τ).loc main_arg0)) (ix2 i j))
      (fun j k => arr S128x128 (m ((c : Thread nD τ).loc main_arg2)) (ix2 j k))
      (fun k => arr S128 (m ((c : Thread nD τ).loc main_arg3)) (ix1 k))
      (fun k => arr S128 (m ((c : Thread nD τ).loc main_arg4)) (ix1 k))
      (fun k => arr S128 (m ((c : Thread nD τ).loc main_arg5)) (ix1 k))
      (fun k => arr S128 (m ((c : Thread nD τ).loc main_arg6)) (ix1 k))
      (fun k => arr S128 (m ((c : Thread nD τ).loc main_arg7)) (ix1 k)) i j := by
  rw [col5 m ρ c i]
  rw [show arr S100000x128 (V5 m ρ c main_v27) (ix2 i j) = _ from host1_entry m ρ c i j]
  rw [show arr S1x128 (V5 m ρ c main_v28) (ix2 (0 : Fin 1) j) = _ from row_v28 m ρ c j,
    show arr S1x128 (V5 m ρ c main_v29) (ix2 (0 : Fin 1) j) = _ from row_v29 m ρ c j,
    show arr S1x128 (V5 m ρ c main_v30) (ix2 (0 : Fin 1) j) = _ from row_v30 m ρ c j,
    show arr S1x128 (V5 m ρ c main_v31) (ix2 (0 : Fin 1) j) = _ from row_v31 m ρ c j,
    show arr S1x128 (V5 m ρ c main_v32) (ix2 (0 : Fin 1) j) = _ from row_v32 m ρ c j]
  rw [show (fun i j => arr S100000x128 (W4 m ρ c (Proc.devRef .tc main_v16)) (ix2 i j)) = _ from funext fun i => funext fun j => hs1_entry m ρ c i j]
  rfl

theorem x1_entry (i : Fin 100000) (j : Fin 128) :
    arr S100000x128 (W6 m ρ c (Proc.devRef .tc main_v33_0)) (ix2 i j) = x1K (tgt (Cert.ReferenceIdeal.ReadP.val_main_v6 (F := Ideal) (m ((c : Thread nD τ).loc main_arg1)))) (node (Cert.ReferenceIdeal.ReadP.val_main_v5 (F := Ideal) (m ((c : Thread nD τ).loc main_arg1))))
      (fun i => arr Cert.ReferenceIdeal.S100000 (Cert.ReferenceIdeal.ReadP.val_main_v14 (F := Ideal) (m ((c : Thread nD τ).loc main_arg1))) (ix1 i))
      (fun i j => arr S100000x128 (m ((c : Thread nD τ).loc main_arg0)) (ix2 i j))
      (fun j k => arr S128x128 (m ((c : Thread nD τ).loc main_arg2)) (ix2 j k))
      (fun k => arr S128 (m ((c : Thread nD τ).loc main_arg3)) (ix1 k))
      (fun k => arr S128 (m ((c : Thread nD τ).loc main_arg4)) (ix1 k))
      (fun k => arr S128 (m ((c : Thread nD τ).loc main_arg5)) (ix1 k))
      (fun k => arr S128 (m ((c : Thread nD τ).loc main_arg6)) (ix1 k))
      (fun k => arr S128 (m ((c : Thread nD τ).loc main_arg7)) (ix1 k)) i j := by
  rw [show W6 m ρ c (Proc.devRef .tc main_v33_0) = (dat1 (V5 m ρ) c).arrAt 8 cfg1.N from W6_arr m ρ c 8]
  rw [Cert.KernelIdeal.Hand.region1_x1 (V5 m ρ) c i j]
  exact x1_formula m ρ c i j

/-- The second region's second output: each row of the dense transform of layer one, scaled by its node's factor. -/
theorem hs2_entry (i : Fin 100000) (j : Fin 128) :
    arr S100000x128 (W6 m ρ c (Proc.devRef .tc main_v33_1)) (ix2 i j)
      = linS (fun i => arr Cert.ReferenceIdeal.S100000 (Cert.ReferenceIdeal.ReadP.val_main_v14 (F := Ideal) (m ((c : Thread nD τ).loc main_arg1))) (ix1 i))
          (x1K (tgt (Cert.ReferenceIdeal.ReadP.val_main_v6 (F := Ideal) (m ((c : Thread nD τ).loc main_arg1)))) (node (Cert.ReferenceIdeal.ReadP.val_main_v5 (F := Ideal) (m ((c : Thread nD τ).loc main_arg1))))
      (fun i => arr Cert.ReferenceIdeal.S100000 (Cert.ReferenceIdeal.ReadP.val_main_v14 (F := Ideal) (m ((c : Thread nD τ).loc main_arg1))) (ix1 i))
      (fun i j => arr S100000x128 (m ((c : Thread nD τ).loc main_arg0)) (ix2 i j))
      (fun j k => arr S128x128 (m ((c : Thread nD τ).loc main_arg2)) (ix2 j k))
      (fun k => arr S128 (m ((c : Thread nD τ).loc main_arg3)) (ix1 k))
      (fun k => arr S128 (m ((c : Thread nD τ).loc main_arg4)) (ix1 k))
      (fun k => arr S128 (m ((c : Thread nD τ).loc main_arg5)) (ix1 k))
      (fun k => arr S128 (m ((c : Thread nD τ).loc main_arg6)) (ix1 k))
      (fun k => arr S128 (m ((c : Thread nD τ).loc main_arg7)) (ix1 k)))
          (fun j k => arr S128x128 (m ((c : Thread nD τ).loc main_arg8)) (ix2 j k)) i j := by
  rw [show W6 m ρ c (Proc.devRef .tc main_v33_1) = (dat1 (V5 m ρ) c).arrAt 9 cfg1.N from W6_arr m ρ c 9]
  rw [Cert.KernelIdeal.Hand.region1_hs (V5 m ρ) c i j]
  simp only [x1_formula m ρ c i]
  rw [col5 m ρ c i]
  unfold linS lin
  rw [show V5 m ρ c main_arg8 = m ((c : Thread nD τ).loc main_arg8) from W5_arg8 m ρ c]

/-- THE KERNEL'S RESULT, entry by entry: the first arrangement of the specification. -/
theorem kernel_value (r : Fin 100000) (o : Fin 40) :
    arr S100000x40 (W8 m ρ c (Proc.devRef .tc main_v47)) (ix2 r o)
      = outK (tgt (Cert.ReferenceIdeal.ReadP.val_main_v6 (F := Ideal) (m ((c : Thread nD τ).loc main_arg1)))) (node (Cert.ReferenceIdeal.ReadP.val_main_v5 (F := Ideal) (m ((c : Thread nD τ).loc main_arg1))))
      (fun i => arr Cert.ReferenceIdeal.S100000 (Cert.ReferenceIdeal.ReadP.val_main_v14 (F := Ideal) (m ((c : Thread nD τ).loc main_arg1))) (ix1 i))
      (fun i j => arr S100000x128 (m ((c : Thread nD τ).loc main_arg0)) (ix2 i j))
      (fun j k => arr S128x128 (m ((c : Thread nD τ).loc main_arg2)) (ix2 j k))
      (fun k => arr S128 (m ((c : Thread nD τ).loc main_arg3)) (ix1 k))
      (fun k => arr S128 (m ((c : Thread nD τ).loc main_arg4)) (ix1 k))
      (fun k => arr S128 (m ((c : Thread nD τ).loc main_arg5)) (ix1 k))
      (fun k => arr S128 (m ((c : Thread nD τ).loc main_arg6)) (ix1 k))
      (fun k => arr S128 (m ((c : Thread nD τ).loc main_arg7)) (ix1 k))
      (fun j k => arr S128x128 (m ((c : Thread nD τ).loc main_arg8)) (ix2 j k))
      (fun k => arr S128 (m ((c : Thread nD τ).loc main_arg9)) (ix1 k))
      (fun k o => arr S128x40 (m ((c : Thread nD τ).loc main_arg10)) (ix2 k o))
      (fun o => arr S40 (m ((c : Thread nD τ).loc main_arg11)) (ix1 o)) r o := by
  rw [show W8 m ρ c (Proc.devRef .tc main_v47) = (dat2 (V7 m ρ) c).arrAt 6 cfg2.N from W8_arr m ρ c 6]
  rw [Cert.KernelIdeal.Hand.region2_out (V7 m ρ) c r o]
  unfold outK
  rw [show arr S1x40 (V7 m ρ c main_v46) (ix2 (0 : Fin 1) o) = _ from row_v46 m ρ c o]
  refine congrArg (· + _) (Finset.sum_congr rfl fun k _ => ?_)
  rw [col7 m ρ c r]
  rw [show arr S1x128 (V7 m ρ c main_v45) (ix2 (0 : Fin 1) k) = _ from row_v45 m ρ c k]
  rw [show V7 m ρ c main_arg10 = m ((c : Thread nD τ).loc main_arg10) from W7_arg10 m ρ c]
  rw [show arr S100000x128 (V7 m ρ c main_v44) (ix2 r k) = _ from host2_entry m ρ c r k]
  rw [show (fun i j => arr S100000x128 (W6 m ρ c (Proc.devRef .tc main_v33_1)) (ix2 i j)) = _ from funext fun i => funext fun j => hs2_entry m ρ c i j]
  have h0 : arr S100000x128 (V7 m ρ c main_v33_0) (ix2 r k) = arr S100000x128 (W6 m ρ c (Proc.devRef .tc main_v33_0)) (ix2 r k) := by
    show arr S100000x128 (W7 m ρ c (Proc.devRef .tc main_v33_0)) (ix2 r k) = _
    rw [show W7 m ρ c (Proc.devRef .tc main_v33_0) = W6 m ρ c (Proc.devRef .tc main_v33_0) by not_written]
  rw [h0, x1_entry m ρ c r k]

end Cert.KernelIdeal.ValueK

end
-- ==== Proof.RefRunRead.lean ====
/-
  The reference's result, named by its run as one composed term of the arguments, is the last stage of the same
  composition written as a chain of one definition per operation: the two are the same term once each stage's definition
  is opened.
-/
import proofs.«160650_j4501125726319_2_alg».proof.Proof.RefRun
import proofs.«160650_j4501125726319_2_alg».proof.Proof.RefRead

noncomputable section

namespace Cert.ReferenceIdeal.Bound

open Cert.ReferenceIdeal Idealize.ShloMosaic Idealize.ShloMosaic.TcCoe Idealize.SL.Sem

/-- The run's term for the result is the chain's last stage at the arguments' launch contents. -/
theorem res_eq_val (m : (ℓ : Loc nD τ sig) → Buf (Elt Ideal) ℓ) (c : Dev nD) :
    Cert.ReferenceIdeal.ValueP.res_main_v84 (F := Ideal) m c
      = Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.ValueP.res_main_v84
  rfl

end Cert.ReferenceIdeal.Bound

end
-- ==== Proof.LibGatherVec.lean ====
/-
  A gather of single elements of a vector, read at an index.

  Taking elements of a vector `x : [N]` at an integer column of positions `idx : [R, 1]` is a gather that collapses the
  operand's one axis (slices of one element), has no offset axis, and reads each start index off `idx`'s second axis.
  Its element `e` is `x` at the position `idx[e, 0]` — read as a signed integer and clamped into `[0, N − 1]`, as every
  start index of a gather is.
-/
import Idealize.ShloMosaic.PureOps
import Idealize.ShloMosaic.Lib.ValueIdx

namespace Cert.Lib.GatherVec

open Idealize.ShloMosaic Idealize.ShloMosaic.ValueIdx

variable {α : Type}

/-- The dimension numbers of that gather for an operand `[N]`, start indices `[R, 1]` and a result `[R]`. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `e`: the operand at the position `idx[e, 0]`, read signed and clamped into `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims N R wf).start (ix1 e) idx 0 + (vecDims N R wf).batchCoord (ix1 e) 0 + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.GatherVec
-- ==== Proof.RefValue.lean ====
/-
  The reference program's result, read entry by entry.

  The program gathers, for every edge e, the factor of its source node and the factor of the node its target clamps to,
  and multiplies them. A layer transforms every node's row by a dense map, gathers for every edge the transformed row
  of its source node, scales it by the edge's factor, and adds it into the row its target names, starting from the
  zero word: a message whose target, read as a signed integer, is no row number lands nowhere. That is the received
  sum propN of the specification. The first layer adds its bias, normalises with the running statistics, scales,
  shifts and rectifies (x1R); the second layer's received sum plus its bias is joined with the first layer's output
  by an entrywise maximum, and a last dense map and bias give the result (outR).

  Every step is read at one entry: a gather at a column of wrapped words reads its operand at the edges' nodes, a
  scatter-add reads as the operand's entry plus the sum over the edges whose target is the row, and the entrywise
  operations read entrywise.
-/
import proofs.«160650_j4501125726319_2_alg».proof.Proof.RefRead
import proofs.«160650_j4501125726319_2_alg».proof.Proof.Spec
import proofs.«160650_j4501125726319_2_alg».proof.Proof.Edges
import proofs.«160650_j4501125726319_2_alg».proof.Proof.LibGatherRows
import proofs.«160650_j4501125726319_2_alg».proof.Proof.LibGatherVec
import proofs.«160650_j4501125726319_2_alg».proof.Proof.LibScatterRows
import Idealize.ShloMosaic.PureOps.Ideal.Laws
import Idealize.ShloMosaic.Lib.IdealHost

noncomputable section

namespace Cert.ReferenceIdeal.Hand

open Cert.ReferenceIdeal Idealize.ShloMosaic Idealize.ShloMosaic.ValueIdx Cert.GCN
open scoped BigOperators
open Cert.ReferenceIdeal.ReadP

/-! ## The two index operations of the program, in the row forms -/

theorem gdims_vec : gather_S100000_S1700000x1_S1700000_n_0_n_n_0_1_1
    = Cert.Lib.GatherVec.vecDims 100000 1700000 Facts₀.gather_S100000_S1700000x1_S1700000_n_0_n_n_0_1_1_wf := rfl

theorem gdims_rows : gather_S100000x128_S1700000x1_S1700000x128_1_0_n_n_0_1_1128
    = Cert.Lib.GatherRows.rowsDims 100000 1700000 128 Facts₀.gather_S100000x128_S1700000x1_S1700000x128_1_0_n_n_0_1_1128_wf := rfl

theorem sdims_rows : scatter_S100000x128_S1700000x1_S1700000x128_1_0_0_1
    = Cert.Lib.ScatterRows.rowsDims 100000 1700000 128 Facts₀.scatter_S100000x128_S1700000x1_S1700000x128_1_0_0_1_wf := rfl

/-- A gather of single elements of a vector of 100000 at a column of 1700000 words. -/
theorem gvec (x : (⟨S100000, .f32⟩ : BufTy).Contents (Elt Ideal)) (idx : (⟨S1700000x1, .i32⟩ : BufTy).Contents (Elt Ideal))
    (e : Fin 1700000) :
    Host.gather gather_S100000_S1700000x1_S1700000_n_0_n_n_0_1_1 x idx (ix1 e)
      = x (ix1 (⟨min (idx (ix2 e (0 : Fin 1))).toInt.toNat (100000 - 1), by omega⟩ : Fin 100000)) := by
  rw [gdims_vec]
  exact Cert.Lib.GatherVec.gather_vec_apply (by decide) _ x idx e

/-- A gather of whole rows of a 100000 × 128 matrix at a column of 1700000 words. -/
theorem grows (x : (⟨S100000x128, .f32⟩ : BufTy).Contents (Elt Ideal)) (idx : (⟨S1700000x1, .i32⟩ : BufTy).Contents (Elt Ideal))
    (e : Fin 1700000) (k : Fin 128) :
    Host.gather gather_S100000x128_S1700000x1_S1700000x128_1_0_n_n_0_1_1128 x idx (ix2 e k)
      = x (ix2 (⟨min (idx (ix2 e (0 : Fin 1))).toInt.toNat (100000 - 1), by omega⟩ : Fin 100000) k) := by
  rw [gdims_rows]
  refine (Cert.Lib.GatherRows.gather_rows_apply (by decide) _ x idx (ix2 e k)).trans ?_
  have hi : Cert.Lib.GatherRows.rowsIdx (ix2 e k) = ix2 e (0 : Fin 1) := by
    funext a; match a with | ⟨0, _⟩ => rfl | ⟨1, _⟩ => rfl
  have key : ∀ j : S1700000x1.Idx, j = ix2 e (0 : Fin 1) →
      x (ix2 (⟨min (idx j).toInt.toNat (100000 - 1), by omega⟩ : Fin 100000) (⟨((ix2 e k : S1700000x128.Idx) 1).val, k.isLt⟩ : Fin 128))
        = x (ix2 (⟨min (idx (ix2 e (0 : Fin 1))).toInt.toNat (100000 - 1), by omega⟩ : Fin 100000) k) := by
    intro j hj; subst hj; rfl
  exact key _ hi

/-- A scatter-add of 1700000 rows into a 100000 × 128 matrix, read at an entry. -/
theorem scat (x : (⟨S100000x128, .f32⟩ : BufTy).Contents (Elt Ideal)) (idx : (⟨S1700000x1, .i32⟩ : BufTy).Contents (Elt Ideal))
    (upd : (⟨S1700000x128, .f32⟩ : BufTy).Contents (Elt Ideal)) (r : Fin 100000) (k : Fin 128) :
    arr S100000x128 (Host.scatterAdd (F := Ideal) (φ := .f32) scatter_S100000x128_S1700000x1_S1700000x128_1_0_0_1 x idx upd) (ix2 r k)
      = arr S100000x128 x (ix2 r k)
        + ∑ e : Fin 1700000, if (idx (ix2 e (0 : Fin 1))).toInt = (r.val : Int) then arr S1700000x128 upd (ix2 e k) else 0 := by
  rw [sdims_rows]
  exact Cert.Lib.ScatterRows.scatterAdd_rows_apply _ x idx upd r k

/-- A clamped signed word that is the wrapped word of edge e is the node of edge e. -/
theorem node_eq (v : IVec (⟨1, ![1700000]⟩ : Shape) 32) (e : Fin 1700000) (w : BitVec 32) (h : w = wrapW (v (ix1 e)))
    (hlt : min w.toInt.toNat (100000 - 1) < 100000) :
    (⟨min w.toInt.toNat (100000 - 1), hlt⟩ : Fin 100000) = node v e := by
  subst h; rfl

/-- An element gather at a column of wrapped words reads the vector at the edges' nodes. -/
theorem gvec_node (x : (⟨S100000, .f32⟩ : BufTy).Contents (Elt Ideal)) (idx : (⟨S1700000x1, .i32⟩ : BufTy).Contents (Elt Ideal))
    (v : IVec (⟨1, ![1700000]⟩ : Shape) 32) (hcol : ∀ e : Fin 1700000, idx (ix2 e (0 : Fin 1)) = wrapW (v (ix1 e)))
    (e : Fin 1700000) :
    Host.gather gather_S100000_S1700000x1_S1700000_n_0_n_n_0_1_1 x idx (ix1 e) = x (ix1 (node v e)) :=
  (gvec x idx e).trans (congrArg x (congrArg (ix1 (n := 100000)) (node_eq v e _ (hcol e) _)))

/-- A row gather at a column of wrapped words reads the matrix at the edges' nodes. -/
theorem grows_node (x : (⟨S100000x128, .f32⟩ : BufTy).Contents (Elt Ideal)) (idx : (⟨S1700000x1, .i32⟩ : BufTy).Contents (Elt Ideal))
    (v : IVec (⟨1, ![1700000]⟩ : Shape) 32) (hcol : ∀ e : Fin 1700000, idx (ix2 e (0 : Fin 1)) = wrapW (v (ix1 e)))
    (e : Fin 1700000) (k : Fin 128) :
    Host.gather gather_S100000x128_S1700000x1_S1700000x128_1_0_n_n_0_1_1128 x idx (ix2 e k) = x (ix2 (node v e) k) :=
  (grows x idx e k).trans (congrArg x (congrArg (fun n : Fin 100000 => ix2 n k) (node_eq v e _ (hcol e) _)))

/-- The dense transform of the program, read at an entry. -/
theorem dot30 (a : (⟨S100000x128, .f32⟩ : BufTy).Contents (Elt Ideal)) (w : (⟨S128x128, .f32⟩ : BufTy).Contents (Elt Ideal))
    (n : Fin 100000) (k : Fin 128) :
    arr S100000x128 (val_main_v30 (F := Ideal) a w) (ix2 n k)
      = lin (fun i j => arr S100000x128 a (ix2 i j)) (fun j k => arr S128x128 w (ix2 j k)) n k := by
  unfold lin
  refine (val_main_v30_apply a w (ix2 n k)).trans ?_
  refine Finset.sum_congr rfl fun j _ => ?_
  have hl : lidx_main_v30 (ix2 n k) j = ix2 n j := by
    funext a; match a with | ⟨0, _⟩ => rfl | ⟨1, _⟩ => rfl
  have hr : ridx_main_v30 (ix2 n k) j = ix2 j k := by
    funext a; match a with | ⟨0, _⟩ => rfl | ⟨1, _⟩ => rfl
  rw [hl, hr]

section Cols
variable (x1 : (⟨S2x1600000, .i32⟩ : BufTy).Contents (Elt Ideal))

/-- The row-index column of the first factor gather: the wrapped row words. -/
theorem col20 (e : Fin 1700000) :
    val_main_v20 (F := Ideal) x1 (ix2 e (0 : Fin 1)) = wrapW (val_main_v5 (F := Ideal) x1 (ix1 e)) := by
  refine (val_main_v20_apply x1 _).trans ?_
  have hi : idx_main_v20 (ix2 e (0 : Fin 1)) = ix1 e := by
    funext a; match a with | ⟨0, _⟩ => rfl
  rw [hi, val_main_v19_apply, val_main_v16_apply, val_main_v18_apply, val_main_v15_apply, val_main_v17_apply,
    val_main_c_apply, val_main_c_3_apply]
  rfl

/-- The column-index column of the second factor gather: the wrapped column words. -/
theorem col27 (e : Fin 1700000) :
    val_main_v27 (F := Ideal) x1 (ix2 e (0 : Fin 1)) = wrapW (val_main_v6 (F := Ideal) x1 (ix1 e)) := by
  refine (val_main_v27_apply x1 _).trans ?_
  have hi : idx_main_v27 (ix2 e (0 : Fin 1)) = ix1 e := by
    funext a; match a with | ⟨0, _⟩ => rfl
  rw [hi, val_main_v26_apply, val_main_v23_apply, val_main_v25_apply, val_main_v22_apply, val_main_v24_apply,
    val_main_c_4_apply, val_main_c_5_apply]
  rfl

/-- The row-index column of the first row gather. -/
theorem col36 (e : Fin 1700000) :
    val_main_v36 (F := Ideal) x1 (ix2 e (0 : Fin 1)) = wrapW (val_main_v5 (F := Ideal) x1 (ix1 e)) := by
  refine (val_main_v36_apply x1 _).trans ?_
  have hi : idx_main_v36 (ix2 e (0 : Fin 1)) = ix1 e := by
    funext a; match a with | ⟨0, _⟩ => rfl
  rw [hi, val_main_v35_apply, val_main_v32_apply, val_main_v34_apply, val_main_v31_apply, val_main_v33_apply,
    val_main_c_6_apply, val_main_c_7_apply]
  rfl

/-- The row-index column of the second row gather. -/
theorem col69 (e : Fin 1700000) :
    val_main_v69 (F := Ideal) x1 (ix2 e (0 : Fin 1)) = wrapW (val_main_v5 (F := Ideal) x1 (ix1 e)) := by
  refine (val_main_v69_apply x1 _).trans ?_
  have hi : idx_main_v69 (ix2 e (0 : Fin 1)) = ix1 e := by
    funext a; match a with | ⟨0, _⟩ => rfl
  rw [hi, val_main_v68_apply, val_main_v65_apply, val_main_v67_apply, val_main_v64_apply, val_main_v66_apply,
    val_main_c_10_apply, val_main_c_11_apply]
  rfl

/-- The target column of the first scatter: the column words themselves. -/
theorem col42 (e : Fin 1700000) :
    val_main_v42 (F := Ideal) x1 (ix2 e (0 : Fin 1)) = val_main_v6 (F := Ideal) x1 (ix1 e) := by
  refine (val_main_v42_apply x1 _).trans ?_
  have hi : idx_main_v42 (ix2 e (0 : Fin 1)) = ix1 e := by
    funext a; match a with | ⟨0, _⟩ => rfl
  rw [hi]

/-- The target column of the second scatter: the column words themselves. -/
theorem col75 (e : Fin 1700000) :
    val_main_v75 (F := Ideal) x1 (ix2 e (0 : Fin 1)) = val_main_v6 (F := Ideal) x1 (ix1 e) := by
  refine (val_main_v75_apply x1 _).trans ?_
  have hi : idx_main_v75 (ix2 e (0 : Fin 1)) = ix1 e := by
    funext a; match a with | ⟨0, _⟩ => rfl
  rw [hi]

/-- The factor of edge e: the factor of its source node times the factor of the node its target clamps to. -/
theorem fac (e : Fin 1700000) :
    arr S1700000 (val_main_v29 (F := Ideal) x1) (ix1 e)
      = arr S100000 (val_main_v14 (F := Ideal) x1) (ix1 (node (val_main_v5 (F := Ideal) x1) e))
        * arr S100000 (val_main_v14 (F := Ideal) x1) (ix1 (node (val_main_v6 (F := Ideal) x1) e)) := by
  have h21 : val_main_v21 (F := Ideal) x1 (ix1 e)
      = val_main_v14 (F := Ideal) x1 (ix1 (node (val_main_v5 (F := Ideal) x1) e)) := by
    unfold val_main_v21
    exact gvec_node _ _ (val_main_v5 (F := Ideal) x1) (col20 x1) e
  have h28 : val_main_v28 (F := Ideal) x1 (ix1 e)
      = val_main_v14 (F := Ideal) x1 (ix1 (node (val_main_v6 (F := Ideal) x1) e)) := by
    unfold val_main_v28
    exact gvec_node _ _ (val_main_v6 (F := Ideal) x1) (col27 x1) e
  unfold arr
  rw [val_main_v29_apply, Ideal.mulf_def, h21, h28]

/-- The factor spread along a message's row (first layer). -/
theorem b39 (e : Fin 1700000) (k : Fin 128) :
    arr S1700000x128 (val_main_v39 (F := Ideal) x1) (ix2 e k) = arr S1700000 (val_main_v29 (F := Ideal) x1) (ix1 e) := by
  refine (val_main_v39_apply x1 _).trans ((val_main_v38_apply x1 _).trans (congrArg (val_main_v29 (F := Ideal) x1) ?_))
  funext a; match a with | ⟨0, _⟩ => rfl

/-- The factor spread along a message's row (second layer). -/
theorem b72 (e : Fin 1700000) (k : Fin 128) :
    arr S1700000x128 (val_main_v72 (F := Ideal) x1) (ix2 e k) = arr S1700000 (val_main_v29 (F := Ideal) x1) (ix1 e) := by
  refine (val_main_v72_apply x1 _).trans ((val_main_v71_apply x1 _).trans (congrArg (val_main_v29 (F := Ideal) x1) ?_))
  funext a; match a with | ⟨0, _⟩ => rfl

end Cols

/-! ## The vectors spread along rows, and the constants -/

/-- The first bias spread along the rows. -/
theorem rb45 (y : (⟨S128, .f32⟩ : BufTy).Contents (Elt Ideal)) (r : Fin 100000) (k : Fin 128) :
    val_main_v45 (F := Ideal) y (ix2 r k) = y (ix1 k) := by
  refine (val_main_v45_apply y _).trans ((val_main_v44_apply y _).trans (congrArg y ?_))
  funext a; match a with | ⟨0, _⟩ => rfl

/-- The running mean spread along the rows. -/
theorem rb48 (y : (⟨S128, .f32⟩ : BufTy).Contents (Elt Ideal)) (r : Fin 100000) (k : Fin 128) :
    val_main_v48 (F := Ideal) y (ix2 r k) = y (ix1 k) := by
  refine (val_main_v48_apply y _).trans ((val_main_v47_apply y _).trans (congrArg y ?_))
  funext a; match a with | ⟨0, _⟩ => rfl

/-- The scale spread along the rows. -/
theorem rb57 (y : (⟨S128, .f32⟩ : BufTy).Contents (Elt Ideal)) (r : Fin 100000) (k : Fin 128) :
    val_main_v57 (F := Ideal) y (ix2 r k) = y (ix1 k) := by
  refine (val_main_v57_apply y _).trans ((val_main_v56_apply y _).trans (congrArg y ?_))
  funext a; match a with | ⟨0, _⟩ => rfl

/-- The shift spread along the rows. -/
theorem rb60 (y : (⟨S128, .f32⟩ : BufTy).Contents (Elt Ideal)) (r : Fin 100000) (k : Fin 128) :
    val_main_v60 (F := Ideal) y (ix2 r k) = y (ix1 k) := by
  refine (val_main_v60_apply y _).trans ((val_main_v59_apply y _).trans (congrArg y ?_))
  funext a; match a with | ⟨0, _⟩ => rfl

/-- The second bias spread along the rows. -/
theorem rb78 (y : (⟨S128, .f32⟩ : BufTy).Contents (Elt Ideal)) (r : Fin 100000) (k : Fin 128) :
    val_main_v78 (F := Ideal) y (ix2 r k) = y (ix1 k) := by
  refine (val_main_v78_apply y _).trans ((val_main_v77_apply y _).trans (congrArg y ?_))
  funext a; match a with | ⟨0, _⟩ => rfl

/-- The reciprocal square root of the running variance plus ε. -/
theorem rs52 (y : (⟨S128, .f32⟩ : BufTy).Contents (Elt Ideal)) (k : Fin 128) :
    val_main_v52 (F := Ideal) y (ix1 k) = Ideal.rsqrt (arr S128 y (ix1 k) + eps) := by
  unfold arr eps
  rw [val_main_v52_apply, Ideal.hostUnary_rsqrt_def, val_main_v51_apply, Ideal.addf_def, val_main_v50_apply,
    val_main_cst_9_apply, Ideal.ofBits_def]

/-- The same spread along the rows. -/
theorem rb54 (y : (⟨S128, .f32⟩ : BufTy).Contents (Elt Ideal)) (r : Fin 100000) (k : Fin 128) :
    val_main_v54 (F := Ideal) y (ix2 r k) = Ideal.rsqrt (arr S128 y (ix1 k) + eps) := by
  refine (val_main_v54_apply y _).trans ((val_main_v53_apply y _).trans ?_)
  refine Eq.trans (congrArg (val_main_v52 (F := Ideal) y) ?_) (rs52 y k)
  funext a; match a with | ⟨0, _⟩ => rfl

/-- The last bias spread along the rows. -/
theorem rb83 (y : (⟨S40, .f32⟩ : BufTy).Contents (Elt Ideal)) (r : Fin 100000) (o : Fin 40) :
    val_main_v83 (F := Ideal) y (ix2 r o) = y (ix1 o) := by
  refine (val_main_v83_apply y _).trans ((val_main_v82_apply y _).trans (congrArg y ?_))
  funext a; match a with | ⟨0, _⟩ => rfl

/-- The starting value of the first scatter is the zero word. -/
theorem z41 (r : Fin 100000) (k : Fin 128) : arr S100000x128 (val_main_v41 (F := Ideal)) (ix2 r k) = zero := by
  unfold arr zero
  rw [val_main_v41_apply, val_main_cst_8_apply, Ideal.ofBits_def]

/-- The starting value of the second scatter is the zero word. -/
theorem z74 (r : Fin 100000) (k : Fin 128) : arr S100000x128 (val_main_v74 (F := Ideal)) (ix2 r k) = zero := by
  unfold arr zero
  rw [val_main_v74_apply, val_main_cst_12_apply, Ideal.ofBits_def]

/-- The rectifier's floor is the zero word. -/
theorem zc1 (r : Fin 100000) (k : Fin 128) : val_main_call1_v0 (F := Ideal) (ix2 r k) = zero := by
  unfold zero
  rw [val_main_call1_v0_apply, val_main_call1_cst_apply, Ideal.ofBits_def]

/-! ## A scatter-add of scaled messages is the received sum -/

theorem prop_layer (col : IVec (⟨1, ![1700000]⟩ : Shape) 32) (sr tc : Fin 1700000 → Fin 100000) (ds : Fin 100000 → EReal)
    (h : Fin 100000 → Fin 128 → EReal)
    (init : (⟨S100000x128, .f32⟩ : BufTy).Contents (Elt Ideal)) (idx : (⟨S1700000x1, .i32⟩ : BufTy).Contents (Elt Ideal))
    (upd : (⟨S1700000x128, .f32⟩ : BufTy).Contents (Elt Ideal))
    (hinit : ∀ (r : Fin 100000) (k : Fin 128), arr S100000x128 init (ix2 r k) = zero)
    (hidx : ∀ e : Fin 1700000, idx (ix2 e (0 : Fin 1)) = col (ix1 e))
    (hupd : ∀ (e : Fin 1700000) (k : Fin 128), arr S1700000x128 upd (ix2 e k) = h (sr e) k * (ds (sr e) * ds (tc e)))
    (r : Fin 100000) (k : Fin 128) :
    arr S100000x128 (Host.scatterAdd (F := Ideal) (φ := .f32) scatter_S100000x128_S1700000x1_S1700000x128_1_0_0_1 init idx upd) (ix2 r k)
      = propN (tgt col) sr tc ds h r k := by
  unfold propN tgt
  refine (scat init idx upd r k).trans ?_
  rw [hinit r k]
  refine congrArg (fun z : EReal => zero + z) (Finset.sum_congr rfl fun e _ => ?_)
  rw [hidx e, hupd e k]

/-! ## The layers -/

section Layers
variable (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 x6 x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x40, .f32⟩ : BufTy).Contents (Elt Ideal)) (x11 : (⟨S40, .f32⟩ : BufTy).Contents (Elt Ideal))

/-- A message of the first layer: the transformed row of the edge's source node times the edge's factor. -/
theorem msg40 (e : Fin 1700000) (k : Fin 128) :
    arr S1700000x128 (val_main_v40 (F := Ideal) x0 x1 x2) (ix2 e k)
      = lin (fun i j => arr S100000x128 x0 (ix2 i j)) (fun j k => arr S128x128 x2 (ix2 j k)) (node (val_main_v5 (F := Ideal) x1) e) k
        * (arr S100000 (val_main_v14 (F := Ideal) x1) (ix1 (node (val_main_v5 (F := Ideal) x1) e)) * arr S100000 (val_main_v14 (F := Ideal) x1) (ix1 (node (val_main_v6 (F := Ideal) x1) e))) := by
  have h37 : val_main_v37 (F := Ideal) x0 x1 x2 (ix2 e k)
      = lin (fun i j => arr S100000x128 x0 (ix2 i j)) (fun j k => arr S128x128 x2 (ix2 j k)) (node (val_main_v5 (F := Ideal) x1) e) k := by
    unfold val_main_v37
    refine (grows_node _ _ (val_main_v5 (F := Ideal) x1) (col36 x1) e k).trans ?_
    exact dot30 x0 x2 _ k
  have h39 := (b39 x1 e k).trans (fac x1 e)
  unfold arr at h39 ⊢
  rw [val_main_v40_apply, Ideal.mulf_def, h37, h39]

/-- The first received sum. -/
theorem l3 (r : Fin 100000) (k : Fin 128) :
    arr S100000x128 (val_main_v43 (F := Ideal) x0 x1 x2) (ix2 r k)
      = propN (tgt (val_main_v6 (F := Ideal) x1)) (node (val_main_v5 (F := Ideal) x1)) (node (val_main_v6 (F := Ideal) x1))
          (fun i => arr S100000 (val_main_v14 (F := Ideal) x1) (ix1 i))
          (lin (fun i j => arr S100000x128 x0 (ix2 i j)) (fun j k => arr S128x128 x2 (ix2 j k))) r k := by
  unfold val_main_v43
  exact prop_layer (val_main_v6 (F := Ideal) x1) (node (val_main_v5 (F := Ideal) x1)) (node (val_main_v6 (F := Ideal) x1))
    (fun i => arr S100000 (val_main_v14 (F := Ideal) x1) (ix1 i))
    (lin (fun i j => arr S100000x128 x0 (ix2 i j)) (fun j k => arr S128x128 x2 (ix2 j k)))
    (val_main_v41 (F := Ideal)) (val_main_v42 (F := Ideal) x1) (val_main_v40 (F := Ideal) x0 x1 x2)
    z41 (col42 x1) (msg40 x0 x1 x2) r k

/-- The first layer's output from its received sum. -/
theorem bn62 (r : Fin 100000) (k : Fin 128) :
    arr S100000x128 (val_main_v62 (F := Ideal) x0 x1 x2 x3 x4 x5 x6 x7) (ix2 r k)
      = bnrelu (arr S100000x128 (val_main_v43 (F := Ideal) x0 x1 x2) (ix2 r k)) (arr S128 x3 (ix1 k)) (arr S128 x6 (ix1 k))
          (arr S128 x7 (ix1 k)) (arr S128 x4 (ix1 k)) (arr S128 x5 (ix1 k)) := by
  unfold bnrelu
  have h54 := rb54 x7 r k
  unfold arr at h54 ⊢
  rw [val_main_v62_apply, Ideal.maximumf_def, val_main_v61_apply, Ideal.addf_def, val_main_v58_apply, Ideal.mulf_def,
    val_main_v55_apply, Ideal.mulf_def, val_main_v49_apply, Ideal.subf_def, val_main_v46_apply, Ideal.addf_def,
    rb45 x3 r k, rb48 x6 r k, h54, rb57 x4 r k, rb60 x5 r k, zc1 r k]

/-- The first layer's output. -/
theorem l4 (r : Fin 100000) (k : Fin 128) :
    arr S100000x128 (val_main_v62 (F := Ideal) x0 x1 x2 x3 x4 x5 x6 x7) (ix2 r k)
      = (x1R (tgt (val_main_v6 (F := Ideal) x1)) (node (val_main_v5 (F := Ideal) x1)) (node (val_main_v6 (F := Ideal) x1))
          (fun i => arr S100000 (val_main_v14 (F := Ideal) x1) (ix1 i))
          (fun i j => arr S100000x128 x0 (ix2 i j)) (fun j k => arr S128x128 x2 (ix2 j k))
          (fun k => arr S128 x3 (ix1 k)) (fun k => arr S128 x4 (ix1 k)) (fun k => arr S128 x5 (ix1 k))
          (fun k => arr S128 x6 (ix1 k)) (fun k => arr S128 x7 (ix1 k))) r k := by
  refine (bn62 x0 x1 x2 x3 x4 x5 x6 x7 r k).trans ?_
  rw [l3 x0 x1 x2 r k]
  rfl

/-- A message of the second layer. -/
theorem msg73 (e : Fin 1700000) (k : Fin 128) :
    arr S1700000x128 (val_main_v73 (F := Ideal) x0 x1 x2 x3 x4 x5 x6 x7 x8) (ix2 e k)
      = lin (x1R (tgt (val_main_v6 (F := Ideal) x1)) (node (val_main_v5 (F := Ideal) x1)) (node (val_main_v6 (F := Ideal) x1))
          (fun i => arr S100000 (val_main_v14 (F := Ideal) x1) (ix1 i))
          (fun i j => arr S100000x128 x0 (ix2 i j)) (fun j k => arr S128x128 x2 (ix2 j k))
          (fun k => arr S128 x3 (ix1 k)) (fun k => arr S128 x4 (ix1 k)) (fun k => arr S128 x5 (ix1 k))
          (fun k => arr S128 x6 (ix1 k)) (fun k => arr S128 x7 (ix1 k)))
          (fun j k => arr S128x128 x8 (ix2 j k)) (node (val_main_v5 (F := Ideal) x1) e) k
        * (arr S100000 (val_main_v14 (F := Ideal) x1) (ix1 (node (val_main_v5 (F := Ideal) x1) e)) * arr S100000 (val_main_v14 (F := Ideal) x1) (ix1 (node (val_main_v6 (F := Ideal) x1) e))) := by
  have h70 : val_main_v70 (F := Ideal) x0 x1 x2 x3 x4 x5 x6 x7 x8 (ix2 e k)
      = lin (x1R (tgt (val_main_v6 (F := Ideal) x1)) (node (val_main_v5 (F := Ideal) x1)) (node (val_main_v6 (F := Ideal) x1))
          (fun i => arr S100000 (val_main_v14 (F := Ideal) x1) (ix1 i))
          (fun i j => arr S100000x128 x0 (ix2 i j)) (fun j k => arr S128x128 x2 (ix2 j k))
          (fun k => arr S128 x3 (ix1 k)) (fun k => arr S128 x4 (ix1 k)) (fun k => arr S128 x5 (ix1 k))
          (fun k => arr S128 x6 (ix1 k)) (fun k => arr S128 x7 (ix1 k)))
          (fun j k => arr S128x128 x8 (ix2 j k)) (node (val_main_v5 (F := Ideal) x1) e) k := by
    unfold val_main_v70 val_main_v63
    refine (grows_node _ _ (val_main_v5 (F := Ideal) x1) (col69 x1) e k).trans ?_
    refine (dot30 (val_main_v62 (F := Ideal) x0 x1 x2 x3 x4 x5 x6 x7) x8 _ k).trans ?_
    have hx : (fun (i : Fin 100000) (j : Fin 128) => arr S100000x128 (val_main_v62 (F := Ideal) x0 x1 x2 x3 x4 x5 x6 x7) (ix2 i j))
        = (x1R (tgt (val_main_v6 (F := Ideal) x1)) (node (val_main_v5 (F := Ideal) x1)) (node (val_main_v6 (F := Ideal) x1))
          (fun i => arr S100000 (val_main_v14 (F := Ideal) x1) (ix1 i))
          (fun i j => arr S100000x128 x0 (ix2 i j)) (fun j k => arr S128x128 x2 (ix2 j k))
          (fun k => arr S128 x3 (ix1 k)) (fun k => arr S128 x4 (ix1 k)) (fun k => arr S128 x5 (ix1 k))
          (fun k => arr S128 x6 (ix1 k)) (fun k => arr S128 x7 (ix1 k))) :=
      funext fun i => funext fun j => l4 x0 x1 x2 x3 x4 x5 x6 x7 i j
    rw [hx]
  have h72 := (b72 x1 e k).trans (fac x1 e)
  unfold arr at h72 ⊢
  rw [val_main_v73_apply, Ideal.mulf_def, h70, h72]

/-- The second received sum. -/
theorem l5 (r : Fin 100000) (k : Fin 128) :
    arr S100000x128 (val_main_v76 (F := Ideal) x0 x1 x2 x3 x4 x5 x6 x7 x8) (ix2 r k)
      = propN (tgt (val_main_v6 (F := Ideal) x1)) (node (val_main_v5 (F := Ideal) x1)) (node (val_main_v6 (F := Ideal) x1))
          (fun i => arr S100000 (val_main_v14 (F := Ideal) x1) (ix1 i))
          (lin (x1R (tgt (val_main_v6 (F := Ideal) x1)) (node (val_main_v5 (F := Ideal) x1)) (node (val_main_v6 (F := Ideal) x1))
          (fun i => arr S100000 (val_main_v14 (F := Ideal) x1) (ix1 i))
          (fun i j => arr S100000x128 x0 (ix2 i j)) (fun j k => arr S128x128 x2 (ix2 j k))
          (fun k => arr S128 x3 (ix1 k)) (fun k => arr S128 x4 (ix1 k)) (fun k => arr S128 x5 (ix1 k))
          (fun k => arr S128 x6 (ix1 k)) (fun k => arr S128 x7 (ix1 k)))
            (fun j k => arr S128x128 x8 (ix2 j k))) r k := by
  unfold val_main_v76
  exact prop_layer (val_main_v6 (F := Ideal) x1) (node (val_main_v5 (F := Ideal) x1)) (node (val_main_v6 (F := Ideal) x1))
    (fun i => arr S100000 (val_main_v14 (F := Ideal) x1) (ix1 i))
    (lin (x1R (tgt (val_main_v6 (F := Ideal) x1)) (node (val_main_v5 (F := Ideal) x1)) (node (val_main_v6 (F := Ideal) x1))
          (fun i => arr S100000 (val_main_v14 (F := Ideal) x1) (ix1 i))
          (fun i j => arr S100000x128 x0 (ix2 i j)) (fun j k => arr S128x128 x2 (ix2 j k))
          (fun k => arr S128 x3 (ix1 k)) (fun k => arr S128 x4 (ix1 k)) (fun k => arr S128 x5 (ix1 k))
          (fun k => arr S128 x6 (ix1 k)) (fun k => arr S128 x7 (ix1 k)))
      (fun j k => arr S128x128 x8 (ix2 j k)))
    (val_main_v74 (F := Ideal)) (val_main_v75 (F := Ideal) x1) (val_main_v73 (F := Ideal) x0 x1 x2 x3 x4 x5 x6 x7 x8)
    z74 (col75 x1) (msg73 x0 x1 x2 x3 x4 x5 x6 x7 x8) r k

/-- The result from the two layers' values. -/
theorem out84 (r : Fin 100000) (o : Fin 40) :
    arr S100000x40 (val_main_v84 (F := Ideal) x0 x1 x2 x3 x4 x5 x6 x7 x8 x9 x10 x11) (ix2 r o)
      = (∑ k : Fin 128, max (arr S100000x128 (val_main_v62 (F := Ideal) x0 x1 x2 x3 x4 x5 x6 x7) (ix2 r k))
            (arr S100000x128 (val_main_v76 (F := Ideal) x0 x1 x2 x3 x4 x5 x6 x7 x8) (ix2 r k) + arr S128 x9 (ix1 k))
          * arr S128x40 x10 (ix2 k o)) + arr S40 x11 (ix1 o) := by
  unfold arr
  rw [val_main_v84_apply, Ideal.addf_def, val_main_v81_apply, rb83 x11 r o]
  refine congrArg (fun z : EReal => z + arr S40 x11 (ix1 o)) (Finset.sum_congr rfl fun k _ => ?_)
  have hl : lidx_main_v81 (ix2 r o) k = ix2 r k := by
    funext a; match a with | ⟨0, _⟩ => rfl | ⟨1, _⟩ => rfl
  have hr : ridx_main_v81 (ix2 r o) k = ix2 k o := by
    funext a; match a with | ⟨0, _⟩ => rfl | ⟨1, _⟩ => rfl
  rw [hl, hr, val_main_v80_apply, Ideal.maximumf_def, val_main_v79_apply, Ideal.addf_def, rb78 x9 r k]

end Layers

/-- The reference program's result, entry by entry, is the second arrangement of the specification. -/
theorem ref_value (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 x6 x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x40, .f32⟩ : BufTy).Contents (Elt Ideal)) (x11 : (⟨S40, .f32⟩ : BufTy).Contents (Elt Ideal))
    (r : Fin 100000) (o : Fin 40) :
    arr S100000x40 (Cert.ReferenceIdeal.ReadP.val_main_v84 (F := Ideal) x0 x1 x2 x3 x4 x5 x6 x7 x8 x9 x10 x11) (ix2 r o)
      = outR (tgt (Cert.ReferenceIdeal.ReadP.val_main_v6 (F := Ideal) x1)) (node (Cert.ReferenceIdeal.ReadP.val_main_v5 (F := Ideal) x1))
          (node (Cert.ReferenceIdeal.ReadP.val_main_v6 (F := Ideal) x1))
          (fun i => arr S100000 (Cert.ReferenceIdeal.ReadP.val_main_v14 (F := Ideal) x1) (ix1 i))
          (fun i j => arr S100000x128 x0 (ix2 i j)) (fun j k => arr S128x128 x2 (ix2 j k))
          (fun k => arr S128 x3 (ix1 k)) (fun k => arr S128 x4 (ix1 k)) (fun k => arr S128 x5 (ix1 k))
          (fun k => arr S128 x6 (ix1 k)) (fun k => arr S128 x7 (ix1 k))
          (fun j k => arr S128x128 x8 (ix2 j k)) (fun k => arr S128 x9 (ix1 k))
          (fun k o => arr S128x40 x10 (ix2 k o)) (fun o => arr S40 x11 (ix1 o)) r o := by
  refine (out84 x0 x1 x2 x3 x4 x5 x6 x7 x8 x9 x10 x11 r o).trans ?_
  unfold outR
  refine congrArg (fun z : EReal => z + arr S40 x11 (ix1 o)) (Finset.sum_congr rfl fun k _ => ?_)
  rw [l4 x0 x1 x2 x3 x4 x5 x6 x7 r k, l5 x0 x1 x2 x3 x4 x5 x6 x7 x8 r k]

end Cert.ReferenceIdeal.Hand

end
-- ==== Proof.DisBound.lean ====
/-
  The reference's normalisation factor of a node is nonnegative and below +∞.

  The factor of node i is chosen by the node's degree d, an extended real: when 0 < d it is the reciprocal square root
  of d, otherwise it is zero. At d = +∞ the reciprocal square root is 0; at a positive real d it is the real number
  (√d)⁻¹, which is nonnegative; and zero is zero. In every case the factor is a nonnegative real, so it is at least 0
  and is not +∞. The degree itself is never opened: the bound holds whatever extended real it is.
-/
import proofs.«160650_j4501125726319_2_alg».proof.Proof.RefRead
import proofs.«160650_j4501125726319_2_alg».proof.Proof.Spec
import Idealize.ShloMosaic.PureOps.Ideal.Laws
import Idealize.ShloMosaic.Lib.IdealHost
import Mathlib.Data.EReal.Operations

noncomputable section

namespace Cert.ReferenceIdeal.Bound

open Cert.ReferenceIdeal Idealize.ShloMosaic Idealize.ShloMosaic.ValueIdx Cert.GCN

/-- The reciprocal square root of d where 0 < d, and zero elsewhere, is a nonnegative extended real other than +∞. -/
theorem select_rsqrt_bound (d : EReal) :
    0 ≤ Scalar.select (Ideal.cmp .ogt d 0) (Ideal.rsqrt d) (0 : EReal)
      ∧ Scalar.select (Ideal.cmp .ogt d 0) (Ideal.rsqrt d) (0 : EReal) ≠ ⊤ := by
  by_cases h : (0 : EReal) < d
  · have hc : Ideal.cmp .ogt d 0 = 1#1 := by
      show BitVec.ofBool (decide ((0 : EReal) < d)) = 1#1
      rw [decide_eq_true h]; rfl
    rw [hc, select_one]
    induction d using EReal.rec with
    | bot => exact absurd h (not_lt_bot)
    | top => rw [Ideal.rsqrt_top]; exact ⟨le_refl 0, EReal.zero_ne_top⟩
    | coe r =>
      have hr : 0 < r := by exact_mod_cast h
      rw [Ideal.rsqrt_coe, if_neg (not_lt.2 hr.le), if_neg hr.ne']
      exact ⟨by exact_mod_cast (inv_nonneg.2 (Real.sqrt_nonneg r)), EReal.coe_ne_top _⟩
  · have hc : Ideal.cmp .ogt d 0 = 0#1 := by
      show BitVec.ofBool (decide ((0 : EReal) < d)) = 0#1
      rw [decide_eq_false h]; rfl
    rw [hc, select_zero]
    exact ⟨le_refl 0, EReal.zero_ne_top⟩

/-- Every normalisation factor of the reference is nonnegative and is not +∞. -/
theorem dis_bound (x1 : (⟨S2x1600000, .i32⟩ : BufTy).Contents (Elt Ideal)) (i : Fin 100000) :
    0 ≤ arr S100000 (Cert.ReferenceIdeal.ReadP.val_main_v14 (F := Ideal) x1) (ix1 i)
      ∧ arr S100000 (Cert.ReferenceIdeal.ReadP.val_main_v14 (F := Ideal) x1) (ix1 i) ≠ ⊤ := by
  show 0 ≤ (Cert.ReferenceIdeal.ReadP.val_main_v14 (F := Ideal) x1 (ix1 i) : EReal)
      ∧ (Cert.ReferenceIdeal.ReadP.val_main_v14 (F := Ideal) x1 (ix1 i) : EReal) ≠ ⊤
  rw [ReadP.val_main_v14_apply, ReadP.val_main_v12_apply, ReadP.val_main_v13_apply, ReadP.val_main_v11_apply,
    ReadP.val_main_cst_1_apply, ReadP.val_main_call0_v1_apply, ReadP.val_main_call0_v0_apply, ReadP.val_main_cst_2_apply]
  generalize ReadP.val_main_v10 (F := Ideal) x1 (ix1 i) = d
  show 0 ≤ Scalar.select (Ideal.cmp .ogt d (Ideal.ofBits .f32 0x00000000#32)) (Ideal.rsqrt d) (Ideal.ofBits .f32 0x00000000#32)
      ∧ Scalar.select (Ideal.cmp .ogt d (Ideal.ofBits .f32 0x00000000#32)) (Ideal.rsqrt d) (Ideal.ofBits .f32 0x00000000#32) ≠ ⊤
  rw [Ideal.ofBits_zero_f32]
  exact select_rsqrt_bound d

end Cert.ReferenceIdeal.Bound

end
-- ==== Proof.lean ====
/-
  A two-layer graph convolution on 100000 nodes and 1700000 edges (the given edges and one self-loop per node):
  symmetric degree normalisation, batch normalisation with running statistics and a rectifier after the first
  layer, an entrywise maximum of the two layers' outputs, and a final linear map to 40 features.

  The kernel computes it in three tiled regions with two gather / scatter-add stretches on the host between them.
  It scales each row of a layer's dense transform by its node's normalisation factor before the row is sent along
  the edges, and scales the sum a node receives by that node's factor afterwards. The reference scales every
  message by the product of the sender's and the receiver's factors. Over the extended reals the two agree:
  the receiver's factor is a common right factor of every message that lands in a row, it is nonnegative and below
  +∞ (it is the inverse square root of a positive degree, or zero), such a factor distributes over any finite sum,
  and multiplication is associative (Proof/Spec.lean, out_pair). Nothing else differs: a change of float format is
  the identity, a tiled matrix product into a zero accumulator is the matrix product, and both programs read the
  same edge words the same way (Proof/Edges.lean).

  The kernel's result is read off its run region by region (Proof/Region0.lean, Region1.lean, Region2.lean: each
  region's output array as one function of the arrays it finds; Proof/KernelFolds.lean, KernelRows.lean,
  KernelHost.lean: what each region finds; Proof/KernelValue.lean: the result, entry by entry), the reference's
  from its run one operation at a time (Proof/RefValue.lean). The kernel's idealization rewrote nothing, so it is
  the kernel's own text read over the extended reals.
-/
import proofs.«160650_j4501125726319_2_alg».proof.Defs
import proofs.«160650_j4501125726319_2_alg».proof.Proof.Gen.Kernel
import proofs.«160650_j4501125726319_2_alg».proof.Proof.Gen.Kernel.Skeleton
import proofs.«160650_j4501125726319_2_alg».proof.Proof.Gen.Kernel.Launch
import proofs.«160650_j4501125726319_2_alg».proof.Proof.Gen.Kernel.Points
import proofs.«160650_j4501125726319_2_alg».proof.Proof.Gen.Kernel.Frame
import proofs.«160650_j4501125726319_2_alg».proof.Proof.Gen.KernelIdeal
import proofs.«160650_j4501125726319_2_alg».proof.Proof.Gen.KernelIdeal.Skeleton
import proofs.«160650_j4501125726319_2_alg».proof.Proof.Gen.KernelIdeal.Launch
import proofs.«160650_j4501125726319_2_alg».proof.Proof.Gen.KernelIdeal.Points
import proofs.«160650_j4501125726319_2_alg».proof.Proof.Gen.KernelIdeal.Frame
import proofs.«160650_j4501125726319_2_alg».proof.Proof.Gen.ReferenceIdeal
import proofs.«160650_j4501125726319_2_alg».proof.Proof.Gen.Pre_finite_inputs
import proofs.«160650_j4501125726319_2_alg».proof.Proof.Spec
import proofs.«160650_j4501125726319_2_alg».proof.Proof.Edges
import proofs.«160650_j4501125726319_2_alg».proof.Proof.KernelRun
import proofs.«160650_j4501125726319_2_alg».proof.Proof.KernelValue
import proofs.«160650_j4501125726319_2_alg».proof.Proof.RefRun
import proofs.«160650_j4501125726319_2_alg».proof.Proof.RefRunRead
import proofs.«160650_j4501125726319_2_alg».proof.Proof.RefValue
import proofs.«160650_j4501125726319_2_alg».proof.Proof.DisBound
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The kernel as printed runs and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the same result array: the reference's result,
    entry by entry, is the second arrangement of the specification, the kernel's the first, and the two
    arrangements agree. -/
theorem algebraic : Cert.algebraic_KernelIdeal_ReferenceIdeal := by
  intro m ρ m' ρ' _ hagree
  refine ⟨fun c => Cert.KernelIdeal.Gen.W8 m ρ c (Proc.devRef .tc Cert.KernelIdeal.main_v47),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Bound.res_eq_val]
  obtain ⟨h0, h1, h2, h3, h4, h5, h6, h7, h8, h9, h10, h11⟩ := hagree c
  rw [h0, h1, h2, h3, h4, h5, h6, h7, h8, h9, h10, h11]
  refine funext fun i => ?_
  obtain ⟨r, o, rfl⟩ : ∃ (r : Fin 100000) (o : Fin 40), i = ix2 r o := ⟨i 0, i 1, eq_ix2 i⟩
  refine (Cert.ReferenceIdeal.Hand.ref_value _ _ _ _ _ _ _ _ _ _ _ _ r o).trans ?_
  refine (Cert.GCN.out_pair _ _ _ _ _ _ _ _ _ _ _ _ _ _ _
    (fun j => Cert.ReferenceIdeal.Bound.dis_bound _ j) (fun e j h => Cert.GCN.node_of_tgt _ e j h) r o).trans ?_
  exact (Cert.KernelIdeal.ValueK.kernel_value m ρ c r o).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
